-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v80)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v80) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v87) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S16 .f32) (main_arg6 : FVec F S16x2 .f32) (main_arg7 : FVec F S2 .f32) (main_v13 : IVec S_ 1) (main_v16 : IVec S16 1) : IVec S_ 1 :=
  let main_c_5 : IVec S_ 1 := constantI S_ 1 1#1
  let main_v17 : IVec S_ 1 := (fun x v => Host.reduce IntOp.andi x v reducesTo_S16_S_d0 h_S_) main_v16 main_c_5
  let main_v18 : IVec S_ 1 := andi main_v13 main_v17
  let main_v19 : FVec F S16 .f32 := Host.absf main_arg5
  let main_cst_6 : FVec F S_ .f32 := constant S_ .f32 0x7F800000#32
  let main_v20 : FVec F S16 .f32 := broadcastInDim S16 ![] bcast_S_S16 main_cst_6
  let main_v21 : IVec S16 1 := cmpf .olt main_v19 main_v20
  let main_c_7 : IVec S_ 1 := constantI S_ 1 1#1
  let main_v22 : IVec S_ 1 := (fun x v => Host.reduce IntOp.andi x v reducesTo_S16_S_d0 h_S_) main_v21 main_c_7
  let main_v23 : IVec S_ 1 := andi main_v18 main_v22
  let main_v24 : FVec F S16x2 .f32 := Host.absf main_arg6
  let main_cst_8 : FVec F S_ .f32 := constant S_ .f32 0x7F800000#32
  let main_v25 : FVec F S16x2 .f32 := broadcastInDim S16x2 ![] bcast_S_S16x2 main_cst_8
  let main_v26 : IVec S16x2 1 := cmpf .olt main_v24 main_v25
  let main_c_9 : IVec S_ 1 := constantI S_ 1 1#1
  let main_v27 : IVec S_ 1 := (fun x v => Host.reduce IntOp.andi x v reducesTo_S16x2_S_d0_1 h_S_) main_v26 main_c_9
  let main_v28 : IVec S_ 1 := andi main_v23 main_v27
  let main_v29 : FVec F S2 .f32 := Host.absf main_arg7
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : FVec F S100000x512 .f32) (main_arg1 : IVec S2x3200000 32) (main_arg2 : FVec F S512x16 .f32) (main_arg3 : FVec F S16 .f32) (main_arg4 : FVec F S16 .f32) (main_arg5 : FVec F S16 .f32) (main_arg6 : FVec F S16x2 .f32) (main_arg7 : FVec F S2 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg2
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16 .f32 := Host.absf main_arg4
  let main_cst_4 : FVec F S_ .f32 := constant S_ .f32 0x7F800000#32
  let main_v15 : FVec F S16 .f32 := broadcastInDim S16 ![] bcast_S_S16 main_cst_4
  let main_v16 : IVec S16 1 := cmpf .olt main_v14 main_v15
  fn_part1 (F := F) main_arg5 main_arg6 main_arg7 main_v13 main_v16
-- ==== Kernel.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S4000x512 : Shape := ⟨2, ![4000, 512]⟩
abbrev S4000x16 : Shape := ⟨2, ![4000, 16]⟩
abbrev S3300000x16 : Shape := ⟨2, ![3300000, 16]⟩
abbrev S1x16 : Shape := ⟨2, ![1, 16]⟩
abbrev S100000x2 : Shape := ⟨2, ![100000, 2]⟩
abbrev S4000x2 : Shape := ⟨2, ![4000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 120
  | .vmem => 12
  | .smem => 0
  | _ => 0

abbrev bufTy : (tb : Table) → Fin (tcTables nBuf tb) → BufTy
  | .hbm, ⟨0, _⟩ => ⟨S100000x512, .f32⟩
  | .hbm, ⟨1, _⟩ => ⟨S2x3200000, .i32⟩
  | .hbm, ⟨2, _⟩ => ⟨S512x16, .f32⟩
  | .hbm, ⟨3, _⟩ => ⟨S16, .f32⟩
  | .hbm, ⟨4, _⟩ => ⟨S16, .f32⟩
  | .hbm, ⟨5, _⟩ => ⟨S16, .f32⟩
  | .hbm, ⟨6, _⟩ => ⟨S16x2, .f32⟩
  | .hbm, ⟨7, _⟩ => ⟨S2, .f32⟩
  | .hbm, ⟨8, _⟩ => ⟨S100000, .i32⟩
  | .hbm, ⟨9, _⟩ => ⟨S1x3200000, .i32⟩
  | .hbm, ⟨10, _⟩ => ⟨S3200000, .i32⟩
  | .hbm, ⟨11, _⟩ => ⟨S3300000, .i32⟩
  | .hbm, ⟨12, _⟩ => ⟨S1x3200000, .i32⟩
  | .hbm, ⟨13, _⟩ => ⟨S3200000, .i32⟩
  | .hbm, ⟨14, _⟩ => ⟨S3300000, .i32⟩
  | .hbm, ⟨15, _⟩ => ⟨S_, .f32⟩
  | .hbm, ⟨16, _⟩ => ⟨S3300000, .f32⟩
  | .hbm, ⟨17, _⟩ => ⟨S_, .f32⟩
  | .hbm, ⟨18, _⟩ => ⟨S100000, .f32⟩
  | .hbm, ⟨19, _⟩ => ⟨S3300000x1, .i32⟩
  | .hbm, ⟨20, _⟩ => ⟨S100000, .f32⟩
  | .hbm, ⟨21, _⟩ => ⟨S100000, .f32⟩
  | .hbm, ⟨22, _⟩ => ⟨S_, .i32⟩
  | .hbm, ⟨23, _⟩ => ⟨S3300000, .i32⟩
  | .hbm, ⟨24, _⟩ => ⟨S3300000, .i1⟩
  | .hbm, ⟨25, _⟩ => ⟨S_, .i32⟩
  | .hbm, ⟨26, _⟩ => ⟨S3300000, .i32⟩
  | .hbm, ⟨27, _⟩ => ⟨S3300000, .i32⟩
  | .hbm, ⟨28, _⟩ => ⟨S3300000, .i32⟩
  | .hbm, ⟨29, _⟩ => ⟨S3300000x1, .i32⟩
  | .hbm, ⟨30, _⟩ => ⟨S3300000, .f32⟩
  | .hbm, ⟨31, _⟩ => ⟨S_, .i32⟩
  | .hbm, ⟨32, _⟩ => ⟨S3300000, .i32⟩
  | .hbm, ⟨33, _⟩ => ⟨S3300000, .i1⟩
  | .hbm, ⟨34, _⟩ => ⟨S_, .i32⟩
  | .hbm, ⟨35, _⟩ => ⟨S3300000, .i32⟩
  | .hbm, ⟨36, _⟩ => ⟨S3300000, .i32⟩
  | .hbm, ⟨37, _⟩ => ⟨S3300000, .i32⟩
  | .hbm, ⟨38, _⟩ => ⟨S3300000x1, .i32⟩
  | .hbm, ⟨39, _⟩ => ⟨S3300000, .f32⟩
  | .hbm, ⟨40, _⟩ => ⟨S3300000, .f32⟩
  | .hbm, ⟨41, _⟩ => ⟨S100000x16, .f32⟩
  | .hbm, ⟨42, _⟩ => ⟨S3300000x1, .f32⟩
  | .hbm, ⟨43, _⟩ => ⟨S_, .i32⟩
  | .hbm, ⟨44, _⟩ => ⟨S3300000, .i32⟩
  | .hbm, ⟨45, _⟩ => ⟨S3300000, .i1⟩
  | .hbm, ⟨46, _⟩ => ⟨S_, .i32⟩
  | .hbm, ⟨47, _⟩ => ⟨S3300000, .i32⟩
  | .hbm, ⟨48, _⟩ => ⟨S3300000, .i32⟩
  | .hbm, ⟨49, _⟩ => ⟨S3300000, .i32⟩
  | .hbm, ⟨50, _⟩ => ⟨S3300000x1, .i32⟩
  | .hbm, ⟨51, _⟩ => ⟨S3300000x16, .f32⟩
  | .hbm, ⟨52, _⟩ => ⟨S3300000x16, .f32⟩
  | .hbm, ⟨53, _⟩ => ⟨S3300000x16, .f32⟩
  | .hbm, ⟨54, _⟩ => ⟨S_, .f32⟩
  | .hbm, ⟨55, _⟩ => ⟨S100000x16, .f32⟩
  | .hbm, ⟨56, _⟩ => ⟨S3300000x1, .i32⟩
  | .hbm, ⟨57, _⟩ => ⟨S100000x16, .f32⟩
  | .hbm, ⟨58, _⟩ => ⟨S1x16, .f32⟩
  | .hbm, ⟨59, _⟩ => ⟨S100000x16, .f32⟩
  | .hbm, ⟨60, _⟩ => ⟨S100000x16, .f32⟩
  | .hbm, ⟨61, _⟩ => ⟨S_, .f32⟩
  | .hbm, ⟨62, _⟩ => ⟨S16, .f32⟩
  | .hbm, ⟨63, _⟩ => ⟨S_, .f32⟩
  | .hbm, ⟨64, _⟩ => ⟨S16, .f32⟩
  | .hbm, ⟨65, _⟩ => ⟨S16, .f32⟩
  | .hbm, ⟨66, _⟩ => ⟨S1x16, .f32⟩
  | .hbm, ⟨67, _⟩ => ⟨S100000x16, .f32⟩
  | .hbm, ⟨68, _⟩ => ⟨S100000x16, .f32⟩
  | .hbm, ⟨69, _⟩ => ⟨S100000x16, .f32⟩
  | .hbm, ⟨70, _⟩ => ⟨S_, .f32⟩
  | .hbm, ⟨71, _⟩ => ⟨S16, .f32⟩
  | .hbm, ⟨72, _⟩ => ⟨S_, .f32⟩
  | .hbm, ⟨73, _⟩ => ⟨S16, .f32⟩
  | .hbm, ⟨74, _⟩ => ⟨S16, .f32⟩
  | .hbm, ⟨75, _⟩ => ⟨S_, .f32⟩
  | .hbm, ⟨76, _⟩ => ⟨S16, .f32⟩
  | .hbm, ⟨77, _⟩ => ⟨S16, .f32⟩
  | .hbm, ⟨78, _⟩ => ⟨S16, .f32⟩
  | .hbm, ⟨79, _⟩ => ⟨S16, .f32⟩
  | .hbm, ⟨80, _⟩ => ⟨S1x16, .f32⟩
  | .hbm, ⟨81, _⟩ => ⟨S16, .f32⟩
  | .hbm, ⟨82, _⟩ => ⟨S16, .f32⟩
  | .hbm, ⟨83, _⟩ => ⟨S16, .f32⟩
  | .hbm, ⟨84, _⟩ => ⟨S1x16, .f32⟩
  | .hbm, ⟨85, _⟩ => ⟨S100000x2, .f32⟩
  | .hbm, ⟨86, _⟩ => ⟨S3300000x1, .f32⟩
  | .hbm, ⟨87, _⟩ => ⟨S_, .i32⟩
  | .hbm, ⟨88, _⟩ => ⟨S3300000, .i32⟩
  | .hbm, ⟨89, _⟩ => ⟨S3300000, .i1⟩
  | .hbm, ⟨90, _⟩ => ⟨S_, .i32⟩
  | .hbm, ⟨91, _⟩ => ⟨S3300000, .i32⟩
  | .hbm, ⟨92, _⟩ => ⟨S3300000, .i32⟩
  | .hbm, ⟨93, _⟩ => ⟨S3300000, .i32⟩
  | .hbm, ⟨94, _⟩ => ⟨S3300000x1, .i32⟩
  | .hbm, ⟨95, _⟩ => ⟨S3300000x2, .f32⟩
  | .hbm, ⟨96, _⟩ => ⟨S3300000x2, .f32⟩
  | .hbm, ⟨97, _⟩ => ⟨S3300000x2, .f32⟩
  | .hbm, ⟨98, _⟩ => ⟨S_, .f32⟩
  | .hbm, ⟨99, _⟩ => ⟨S100000x2, .f32⟩
  | .hbm, ⟨100, _⟩ => ⟨S3300000x1, .i32⟩
  | .hbm, ⟨101, _⟩ => ⟨S100000x2, .f32⟩
  | .hbm, ⟨102, _⟩ => ⟨S1x2, .f32⟩
  | .hbm, ⟨103, _⟩ => ⟨S100000x2, .f32⟩
  | .hbm, ⟨104, _⟩ => ⟨S100000x2, .f32⟩
  | .hbm, ⟨105, _⟩ => ⟨S_, .f32⟩
  | .hbm, ⟨106, _⟩ => ⟨S100000, .f32⟩
  | .hbm, ⟨107, _⟩ => ⟨S_, .f32⟩
  | .hbm, ⟨108, _⟩ => ⟨S100000, .f32⟩
  | .hbm, ⟨109, _⟩ => ⟨S100000, .f32⟩
  | .hbm, ⟨110, _⟩ => ⟨S100000x1, .f32⟩
  | .hbm, ⟨111, _⟩ => ⟨S100000x2, .f32⟩
  | .hbm, ⟨112, _⟩ => ⟨S100000x2, .f32⟩
  | .hbm, ⟨113, _⟩ => ⟨S100000x2, .f32⟩
  | .hbm, ⟨114, _⟩ => ⟨S_, .f32⟩
  | .hbm, ⟨115, _⟩ => ⟨S100000, .f32⟩
  | .hbm, ⟨116, _⟩ => ⟨S100000x1, .f32⟩
  | .hbm, ⟨117, _⟩ => ⟨S100000x1, .f32⟩
  | .hbm, ⟨118, _⟩ => ⟨S100000x2, .f32⟩
  | .hbm, ⟨119, _⟩ => ⟨S100000x2, .f32⟩
  | .local _ .vmem, ⟨0, _⟩ => ⟨S4000x512, .f32⟩
  | .local _ .vmem, ⟨1, _⟩ => ⟨S4000x512, .f32⟩
  | .local _ .vmem, ⟨2, _⟩ => ⟨S512x16, .f32⟩
  | .local _ .vmem, ⟨3, _⟩ => ⟨S4000x16, .f32⟩
  | .local _ .vmem, ⟨4, _⟩ => ⟨S4000x16, .f32⟩
  | .local _ .vmem, ⟨5, _⟩ => ⟨S4000x16, .f32⟩
  | .local _ .vmem, ⟨6, _⟩ => ⟨S4000x16, .f32⟩
  | .local _ .vmem, ⟨7, _⟩ => ⟨S1x16, .f32⟩
  | .local _ .vmem, ⟨8, _⟩ => ⟨S1x16, .f32⟩
  | .local _ .vmem, ⟨9, _⟩ => ⟨S16x2, .f32⟩
  | .local _ .vmem, ⟨10, _⟩ => ⟨S4000x2, .f32⟩
  | .local _ .vmem, ⟨11, _⟩ => ⟨S4000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_c_12 : Ref sig .tc := ⟨.hbm, 87, rfl⟩
abbrev main_v65 : Ref sig .tc := ⟨.hbm, 88, rfl⟩
abbrev main_v66 : Ref sig .tc := ⟨.hbm, 89, rfl⟩
abbrev main_c_13 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_cst_14 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_call0_cst : Ref sig .tc := ⟨.hbm, 105, rfl⟩
abbrev main_call0_v0 : Ref sig .tc := ⟨.hbm, 106, rfl⟩
abbrev main_call0_cst_0 : Ref sig .tc := ⟨.hbm, 107, rfl⟩
abbrev main_call0_v1 : Ref sig .tc := ⟨.hbm, 108, rfl⟩
abbrev main_call0_v2 : Ref sig .tc := ⟨.hbm, 109, rfl⟩
abbrev main_call0_v3 : Ref sig .tc := ⟨.hbm, 110, rfl⟩
abbrev main_call0_v4 : Ref sig .tc := ⟨.hbm, 111, rfl⟩
abbrev main_call0_v5 : Ref sig .tc := ⟨.hbm, 112, rfl⟩
abbrev main_call0_v6 : Ref sig .tc := ⟨.hbm, 113, rfl⟩
abbrev main_call0_cst_1 : Ref sig .tc := ⟨.hbm, 114, rfl⟩
abbrev main_call0_v7 : Ref sig .tc := ⟨.hbm, 115, rfl⟩
abbrev main_call0_v8 : Ref sig .tc := ⟨.hbm, 116, rfl⟩
abbrev main_call0_v9 : Ref sig .tc := ⟨.hbm, 117, rfl⟩
abbrev main_call0_v10 : Ref sig .tc := ⟨.hbm, 118, rfl⟩
abbrev main_v80 : Ref sig .tc := ⟨.hbm, 119, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg4_0 : Ref sig .tc := ⟨.vmem, 10, rfl⟩
abbrev cc1_stg4_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem4_0 : DmaSem sig := 10
abbrev cc1_sem4_1 : DmaSem sig := 11

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x16 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S4000x2 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S4000x512_S4000x512_0_0 : ∀ a, (![0, 0] : Fin 2 → Nat) a + S4000x512.size a ≤ S4000x512.size a
  h_S4000x512 : 0 < S4000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S4000x16_S4000x16_0_0 : ∀ a, (![0, 0] : Fin 2 → Nat) a + S4000x16.size a ≤ S4000x16.size a
  h_S4000x16 : 0 < S4000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  shapeCasts_S16_S1x16 : S16.ShapeCasts S1x16
  shapeCasts_S4000x16_S4000x16 : S4000x16.ShapeCasts S4000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S4000x16 : S1x16.Broadcasts S4000x16
  inb_S16x2_S16x2_0_0 : ∀ a, (![0, 0] : Fin 2 → Nat) a + S16x2.size a ≤ S16x2.size a
  h_S16x2 : 0 < S16x2.numel
  inb_S4000x2_S4000x2_0_0 : ∀ a, (![0, 0] : Fin 2 → Nat) a + S4000x2.size a ≤ S4000x2.size a
  h_S4000x2 : 0 < S4000x2.numel
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S4000x512_S512x16_S4000x16_1_0_0_1_n_n_wf : DotDims.WF S4000x512 S512x16 S4000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S4000x16_S16x2_S4000x2_1_0_0_1_n_n_wf : DotDims.WF S4000x16 S16x2 S4000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x512.size a ≤ S100000x512.size a
  hwx0_0 : ∀ i : grid0.Coords, EltTy.bits .f32 = 32 ∨ (Rect.block (s := S100000x512) S4000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x16.size a ≤ S100000x16.size a
  hwx0_2 : ∀ i : grid0.Coords, EltTy.bits .f32 = 32 ∨ (Rect.block (s := S100000x16) S4000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x16.size a ≤ S100000x16.size a
  hwx1_0 : ∀ i : grid1.Coords, EltTy.bits .f32 = 32 ∨ (Rect.block (s := S100000x16) S4000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x16.size a ≤ S1x16.size a
  hwx1_2 : ∀ i : grid1.Coords, EltTy.bits .f32 = 32 ∨ (Rect.block (s := S1x16) S1x16.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S16x2.size a ≤ S16x2.size a
  hwx1_3 : ∀ i : grid1.Coords, EltTy.bits .f32 = 32 ∨ (Rect.block (s := S16x2) S16x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4000x2.size a ≤ S100000x2.size a
  hwx1_4 : ∀ i : grid1.Coords, EltTy.bits .f32 = 32 ∨ (Rect.block (s := S100000x2) S4000x2.size (cc1_transform_4 i) (hinb1_4 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S4000x512_S512x16_S4000x16_1_0_0_1_n_n : DotDims S4000x512 S512x16 S4000x16 where
  lhsContracting := [1]
  rhsContracting := [0]
  lhsNonContracting := [0]
  rhsNonContracting := [1]
  lhsBatch := []
  rhsBatch := []
  wf := dot_S4000x512_S512x16_S4000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S4000x16_S16x2_S4000x2_1_0_0_1_n_n : DotDims S4000x16 S16x2 S4000x2 where
  lhsContracting := [1]
  rhsContracting := [0]
  lhsNonContracting := [0]
  rhsNonContracting := [1]
  lhsBatch := []
  rhsBatch := []
  wf := dot_S4000x16_S16x2_S4000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S4000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v27) S4000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S4000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v58) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v62) S1x16.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S16x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v63) S4000x2.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x512 : Shape := ⟨2, ![100000, 512]⟩
abbrev S2x3200000 : Shape := ⟨2, ![2, 3200000]⟩
abbrev S512x16 : Shape := ⟨2, ![512, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 129
  | .vmem => 0
  | .smem => 0
  | _ => 0

abbrev hbmTy0_0 (i : Nat) : BufTy := match i % 128 with
  | 0 => ⟨S100000x512, .f32⟩
  | 1 => ⟨S2x3200000, .i32⟩
  | 2 => ⟨S512x16, .f32⟩
  | 3 => ⟨S16, .f32⟩
  | 4 => ⟨S16, .f32⟩
  | 5 => ⟨S16, .f32⟩
  | 6 => ⟨S16x2, .f32⟩
  | 7 => ⟨S2, .f32⟩
  | 8 => ⟨S100000, .i32⟩
  | 9 => ⟨S1x3200000, .i32⟩
  | 10 => ⟨S3200000, .i32⟩
  | 11 => ⟨S3300000, .i32⟩
  | 12 => ⟨S1x3200000, .i32⟩
  | 13 => ⟨S3200000, .i32⟩
  | 14 => ⟨S3300000, .i32⟩
  | 15 => ⟨S_, .f32⟩
  | 16 => ⟨S3300000, .f32⟩
  | 17 => ⟨S_, .f32⟩
  | 18 => ⟨S100000, .f32⟩
  | 19 => ⟨S3300000x1, .i32⟩
  | 20 => ⟨S100000, .f32⟩
  | 21 => ⟨S100000, .f32⟩
  | 22 => ⟨S_, .i32⟩
  | 23 => ⟨S3300000, .i32⟩
  | 24 => ⟨S3300000, .i1⟩
  | 25 => ⟨S_, .i32⟩
  | 26 => ⟨S3300000, .i32⟩
  | 27 => ⟨S3300000, .i32⟩
  | 28 => ⟨S3300000, .i32⟩
  | 29 => ⟨S3300000x1, .i32⟩
  | 30 => ⟨S3300000, .f32⟩
  | 31 => ⟨S_, .i32⟩
  | 32 => ⟨S3300000, .i32⟩
  | 33 => ⟨S3300000, .i1⟩
  | 34 => ⟨S_, .i32⟩
  | 35 => ⟨S3300000, .i32⟩
  | 36 => ⟨S3300000, .i32⟩
  | 37 => ⟨S3300000, .i32⟩
  | 38 => ⟨S3300000x1, .i32⟩
  | 39 => ⟨S3300000, .f32⟩
  | 40 => ⟨S3300000, .f32⟩
  | 41 => ⟨S100000x16, .f32⟩
  | 42 => ⟨S3300000x1, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000x16, .f32⟩
  | 52 => ⟨S3300000x16, .f32⟩
  | 53 => ⟨S3300000x16, .f32⟩
  | 54 => ⟨S_, .f32⟩
  | 55 => ⟨S100000x16, .f32⟩
  | 56 => ⟨S3300000x1, .i32⟩
  | 57 => ⟨S100000x16, .f32⟩
  | 58 => ⟨S1x16, .f32⟩
  | 59 => ⟨S100000x16, .f32⟩
  | 60 => ⟨S100000x16, .f32⟩
  | 61 => ⟨S_, .f32⟩
  | 62 => ⟨S16, .f32⟩
  | 63 => ⟨S_, .f32⟩
  | 64 => ⟨S16, .f32⟩
  | 65 => ⟨S16, .f32⟩
  | 66 => ⟨S1x16, .f32⟩
  | 67 => ⟨S100000x16, .f32⟩
  | 68 => ⟨S100000x16, .f32⟩
  | 69 => ⟨S100000x16, .f32⟩
  | 70 => ⟨S_, .f32⟩
  | 71 => ⟨S16, .f32⟩
  | 72 => ⟨S_, .f32⟩
  | 73 => ⟨S16, .f32⟩
  | 74 => ⟨S16, .f32⟩
  | 75 => ⟨S1x16, .f32⟩
  | 76 => ⟨S100000x16, .f32⟩
  | 77 => ⟨S100000x16, .f32⟩
  | 78 => ⟨S_, .f32⟩
  | 79 => ⟨S16, .f32⟩
  | 80 => ⟨S16, .f32⟩
  | 81 => ⟨S16, .f32⟩
  | 82 => ⟨S1x16, .f32⟩
  | 83 => ⟨S100000x16, .f32⟩
  | 84 => ⟨S100000x16, .f32⟩
  | 85 => ⟨S1x16, .f32⟩
  | 86 => ⟨S100000x16, .f32⟩
  | 87 => ⟨S100000x16, .f32⟩
  | 88 => ⟨S1x16, .f32⟩
  | 89 => ⟨S100000x16, .f32⟩
  | 90 => ⟨S100000x16, .f32⟩
  | 91 => ⟨S_, .f32⟩
  | 92 => ⟨S100000x16, .f32⟩
  | 93 => ⟨S100000x16, .f32⟩
  | 94 => ⟨S100000x2, .f32⟩
  | 95 => ⟨S3300000x1, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000x2, .f32⟩
  | 105 => ⟨S3300000x2, .f32⟩
  | 106 => ⟨S3300000x2, .f32⟩
  | 107 => ⟨S_, .f32⟩
  | 108 => ⟨S100000x2, .f32⟩
  | 109 => ⟨S3300000x1, .i32⟩
  | 110 => ⟨S100000x2, .f32⟩
  | 111 => ⟨S1x2, .f32⟩
  | 112 => ⟨S100000x2, .f32⟩
  | 113 => ⟨S100000x2, .f32⟩
  | 114 => ⟨S_, .f32⟩
  | 115 => ⟨S100000, .f32⟩
  | 116 => ⟨S_, .f32⟩
  | 117 => ⟨S100000, .f32⟩
  | 118 => ⟨S100000, .f32⟩
  | 119 => ⟨S100000x1, .f32⟩
  | 120 => ⟨S100000x2, .f32⟩
  | 121 => ⟨S100000x2, .f32⟩
  | 122 => ⟨S100000x2, .f32⟩
  | 123 => ⟨S_, .f32⟩
  | 124 => ⟨S100000, .f32⟩
  | 125 => ⟨S100000x1, .f32⟩
  | 126 => ⟨S100000x1, .f32⟩
  | 127 => ⟨S100000x2, .f32⟩
  | _ => ⟨S100000x512, .f32⟩

abbrev hbmTy0_1 (i : Nat) : BufTy := match i % 128 with
  | 0 => ⟨S100000x2, .f32⟩
  | _ => ⟨S100000x512, .f32⟩

abbrev hbmTy (i : Nat) : BufTy := match i / 128 with
  | 0 => hbmTy0_0 i
  | 1 => hbmTy0_1 i
  | _ => ⟨S100000x512, .f32⟩

abbrev bufTy : (tb : Table) → Fin (tcTables nBuf tb) → BufTy
  | .hbm, ⟨i, _⟩ => hbmTy i
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_c : Ref sig .tc := ⟨.hbm, 22, rfl⟩
abbrev main_v12 : Ref sig .tc := ⟨.hbm, 23, rfl⟩
abbrev main_v13 : Ref sig .tc := ⟨.hbm, 24, rfl⟩
abbrev main_c_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_c_2 : Ref sig .tc := ⟨.hbm, 31, rfl⟩
abbrev main_v19 : Ref sig .tc := ⟨.hbm, 32, rfl⟩
abbrev main_v20 : Ref sig .tc := ⟨.hbm, 33, rfl⟩
abbrev main_c_3 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_c_4 : Ref sig .tc := ⟨.hbm, 43, rfl⟩
abbrev main_v29 : Ref sig .tc := ⟨.hbm, 44, rfl⟩
abbrev main_v30 : Ref sig .tc := ⟨.hbm, 45, rfl⟩
abbrev main_c_5 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_6 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_cst_8 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_9 : Ref sig .tc := ⟨.hbm, 70, rfl⟩
abbrev main_v51 : Ref sig .tc := ⟨.hbm, 71, rfl⟩
abbrev main_cst_10 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_call0_cst : Ref sig .tc := ⟨.hbm, 91, rfl⟩
abbrev main_call0_v0 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_c_12 : Ref sig .tc := ⟨.hbm, 96, rfl⟩
abbrev main_v72 : Ref sig .tc := ⟨.hbm, 97, rfl⟩
abbrev main_v73 : Ref sig .tc := ⟨.hbm, 98, rfl⟩
abbrev main_c_13 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_cst_14 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_call1_cst : Ref sig .tc := ⟨.hbm, 114, rfl⟩
abbrev main_call1_v0 : Ref sig .tc := ⟨.hbm, 115, rfl⟩
abbrev main_call1_cst_0 : Ref sig .tc := ⟨.hbm, 116, rfl⟩
abbrev main_call1_v1 : Ref sig .tc := ⟨.hbm, 117, rfl⟩
abbrev main_call1_v2 : Ref sig .tc := ⟨.hbm, 118, rfl⟩
abbrev main_call1_v3 : Ref sig .tc := ⟨.hbm, 119, rfl⟩
abbrev main_call1_v4 : Ref sig .tc := ⟨.hbm, 120, rfl⟩
abbrev main_call1_v5 : Ref sig .tc := ⟨.hbm, 121, rfl⟩
abbrev main_call1_v6 : Ref sig .tc := ⟨.hbm, 122, rfl⟩
abbrev main_call1_cst_1 : Ref sig .tc := ⟨.hbm, 123, rfl⟩
abbrev main_call1_v7 : Ref sig .tc := ⟨.hbm, 124, rfl⟩
abbrev main_call1_v8 : Ref sig .tc := ⟨.hbm, 125, rfl⟩
abbrev main_call1_v9 : Ref sig .tc := ⟨.hbm, 126, rfl⟩
abbrev main_call1_v10 : Ref sig .tc := ⟨.hbm, 127, rfl⟩
abbrev main_v87 : Ref sig .tc := ⟨.hbm, 128, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  reducesTo_S100000x16_S16_d0 : S100000x16.ReducesTo [0] S16
  h_S_ : 0 < S_.numel
  bcast_S_S16 : S_.BroadcastsInDim S16 (![] : Fin 0 → Fin S16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelRun.lean ====
/-
  The run of the kernel's program with its RESULT named. The program is six segments — a stretch of host
  operations, the first projection's grid, a stretch, the second projection's grid, two stretches — and every weakly
  fair execution ends with each unscoped buffer at the last segment boundary's contents. Read at the result buffer
  this gives the result array as the fold of the host stretches and the two grids' write-backs from the launch memory
  (`Gen.W6`), beside the argument arrays, which end as launched.
-/
import proofs.«156838_j27968827031806_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the kernel's program terminates, nothing faulting, with the result buffer at the
    last boundary's contents and every argument array as launched. -/
theorem run_result : θ_run defs (onTc (τ := τ) (main (F := F))) ⟨m, fun _ => 0, ρ⟩ (fun r => ∀ c : Dev nD,
      r.2.mem ((c.tc : Thread nD τ).loc main_v80) = W6 m ρ c (Proc.devRef .tc main_v80)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v80 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c)⟩)

end Cert.KernelIdeal.RunValue

end
-- ==== Proof.HostChain.lean ====
/-
  The host stretches of the kernel's program, one at a time, from ANY incoming buffer contents: what each stretch
  leaves in the buffers that later segments read, written with the reference's named stages of the contents the
  stretch read. The two programs spell these stretches with the same operations, so each equation is the unfolding
  of both sides.
    first stretch   the edge lists with their self-loops (sources, destinations) and the edge weights
                    norm k = dinv (src k) · dinv (dst k), from the edge index array alone;
    second stretch  the hidden array h = (scatter-add over the edges of norm · (x·W1) rows) + b1 from the first
                    projection, the column means and inverse standard deviations of h, and from them the kernel's
                    scale γ · inv_std and shift β − mean · γ · inv_std as [1,16] rows;
    last stretches  the second aggregation, the bias and the row-wise log-softmax, from the second projection.
-/
import proofs.«156838_j27968827031806_1_alg».proof.Proof.Gen.KernelIdeal.Launch
import proofs.«156838_j27968827031806_1_alg».proof.Proof.RefRead
import Idealize.ShloMosaic.Lib.StableHlo.Run

noncomputable section

namespace Cert.KernelIdeal.HostChain

open Cert.KernelIdeal Cert.KernelIdeal.Gen Idealize.ShloMosaic Idealize.ShloMosaic.TcCoe Idealize.SL.Sem Idealize.ShloMosaic.StableHlo
open Cert.ReferenceIdeal.ReadP

variable {F : FTy → Type} [FloatOps F]

/-! ## The first stretch -/

/-- The source list. -/
theorem first_src (W : Valuation τ sig (Elt F)) :
    StableHlo.after hostOps0 W (Proc.devRef .tc main_v3) = val_main_v3 (F := F) (W (Proc.devRef .tc main_arg1)) := by
  after_results_simp <;> rfl

/-- The destination list. -/
theorem first_dst (W : Valuation τ sig (Elt F)) :
    StableHlo.after hostOps0 W (Proc.devRef .tc main_v6) = val_main_v6 (F := F) (W (Proc.devRef .tc main_arg1)) := by
  after_results_simp <;> rfl

/-- The edge weights. -/
theorem first_norm (W : Valuation τ sig (Elt F)) :
    StableHlo.after hostOps0 W (Proc.devRef .tc main_v26) = val_main_v26 (F := F) (W (Proc.devRef .tc main_arg1)) := by
  after_results_simp <;> rfl

/-! The first stretch writes no argument array. -/
theorem first_keeps_main_arg0 (W : Valuation τ sig (Elt F)) :
    StableHlo.after hostOps0 W (Proc.devRef .tc main_arg0) = W (Proc.devRef .tc main_arg0) := by
  after_results_simp
theorem first_keeps_main_arg2 (W : Valuation τ sig (Elt F)) :
    StableHlo.after hostOps0 W (Proc.devRef .tc main_arg2) = W (Proc.devRef .tc main_arg2) := by
  after_results_simp
theorem first_keeps_main_arg3 (W : Valuation τ sig (Elt F)) :
    StableHlo.after hostOps0 W (Proc.devRef .tc main_arg3) = W (Proc.devRef .tc main_arg3) := by
  after_results_simp
theorem first_keeps_main_arg4 (W : Valuation τ sig (Elt F)) :
    StableHlo.after hostOps0 W (Proc.devRef .tc main_arg4) = W (Proc.devRef .tc main_arg4) := by
  after_results_simp
theorem first_keeps_main_arg5 (W : Valuation τ sig (Elt F)) :
    StableHlo.after hostOps0 W (Proc.devRef .tc main_arg5) = W (Proc.devRef .tc main_arg5) := by
  after_results_simp
theorem first_keeps_main_arg6 (W : Valuation τ sig (Elt F)) :
    StableHlo.after hostOps0 W (Proc.devRef .tc main_arg6) = W (Proc.devRef .tc main_arg6) := by
  after_results_simp
theorem first_keeps_main_arg7 (W : Valuation τ sig (Elt F)) :
    StableHlo.after hostOps0 W (Proc.devRef .tc main_arg7) = W (Proc.devRef .tc main_arg7) := by
  after_results_simp

/-! ## The second stretch -/

/-! It leaves the edge lists, the edge weights and the last two arguments as they were. -/
theorem second_keeps_main_v3 (W : Valuation τ sig (Elt F)) :
    StableHlo.after hostOps1 W (Proc.devRef .tc main_v3) = W (Proc.devRef .tc main_v3) := by
  after_results_simp
theorem second_keeps_main_v6 (W : Valuation τ sig (Elt F)) :
    StableHlo.after hostOps1 W (Proc.devRef .tc main_v6) = W (Proc.devRef .tc main_v6) := by
  after_results_simp
theorem second_keeps_main_v26 (W : Valuation τ sig (Elt F)) :
    StableHlo.after hostOps1 W (Proc.devRef .tc main_v26) = W (Proc.devRef .tc main_v26) := by
  after_results_simp
theorem second_keeps_main_arg6 (W : Valuation τ sig (Elt F)) :
    StableHlo.after hostOps1 W (Proc.devRef .tc main_arg6) = W (Proc.devRef .tc main_arg6) := by
  after_results_simp
theorem second_keeps_main_arg7 (W : Valuation τ sig (Elt F)) :
    StableHlo.after hostOps1 W (Proc.devRef .tc main_arg7) = W (Proc.devRef .tc main_arg7) := by
  after_results_simp

section Second

variable (W : Valuation τ sig (Elt F))
  (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x16, .f32⟩ : BufTy).Contents (Elt F)) (x3 x4 x5 : (⟨Cert.ReferenceIdeal.S16, .f32⟩ : BufTy).Contents (Elt F))
  (h3 : W (Proc.devRef .tc main_v3) = val_main_v3 (F := F) x1) (h6 : W (Proc.devRef .tc main_v6) = val_main_v6 (F := F) x1)
  (h26 : W (Proc.devRef .tc main_v26) = val_main_v26 (F := F) x1) (h27 : W (Proc.devRef .tc main_v27) = val_main_v27 (F := F) x0 x2)
  (ha3 : W (Proc.devRef .tc main_arg3) = x3) (ha4 : W (Proc.devRef .tc main_arg4) = x4) (ha5 : W (Proc.devRef .tc main_arg5) = x5)

include h3 h6 h26 h27 ha3 in
/-- The hidden array. -/
theorem second_hidden : StableHlo.after hostOps1 W (Proc.devRef .tc main_v43) = val_main_v43 (F := F) x0 x1 x2 x3 := by
  after_results_simp
  rw [h3, h6, h26, h27, ha3]
  rfl

include h3 h6 h26 h27 ha3 ha4 in
/-- The scale row: γ · inv_std, as a [1,16] row. -/
theorem second_scale : StableHlo.after hostOps1 W (Proc.devRef .tc main_v58)
    = (shapeCast S1x16 (mulf x4 (val_main_v59 (F := F) x0 x1 x2 x3)) shapeCasts_S16_S1x16 : (⟨S1x16, .f32⟩ : BufTy).Contents (Elt F)) := by
  after_results_simp
  rw [h3, h6, h26, h27, ha3, ha4]
  rfl

include h3 h6 h26 h27 ha3 ha4 ha5 in
/-- The shift row: β − mean · γ · inv_std, as a [1,16] row. -/
theorem second_shift : StableHlo.after hostOps1 W (Proc.devRef .tc main_v62)
    = (shapeCast S1x16 (subf x5 (mulf (mulf (val_main_v46 (F := F) x0 x1 x2 x3) x4) (val_main_v59 (F := F) x0 x1 x2 x3))) shapeCasts_S16_S1x16 : (⟨S1x16, .f32⟩ : BufTy).Contents (Elt F)) := by
  after_results_simp
  rw [h3, h6, h26, h27, ha3, ha4, ha5]
  rfl

end Second

/-! ## The last two stretches -/

section Last

variable (W : Valuation τ sig (Elt F))
  (x0 : (⟨Cert.ReferenceIdeal.S100000x512, .f32⟩ : BufTy).Contents (Elt F)) (x1 : (⟨Cert.ReferenceIdeal.S2x3200000, .i32⟩ : BufTy).Contents (Elt F))
  (x2 : (⟨Cert.ReferenceIdeal.S512x16, .f32⟩ : BufTy).Contents (Elt F)) (x3 x4 x5 : (⟨Cert.ReferenceIdeal.S16, .f32⟩ : BufTy).Contents (Elt F))
  (x6 : (⟨Cert.ReferenceIdeal.S16x2, .f32⟩ : BufTy).Contents (Elt F)) (x7 : (⟨Cert.ReferenceIdeal.S2, .f32⟩ : BufTy).Contents (Elt F))
  (h3 : W (Proc.devRef .tc main_v3) = val_main_v3 (F := F) x1) (h6 : W (Proc.devRef .tc main_v6) = val_main_v6 (F := F) x1)
  (h26 : W (Proc.devRef .tc main_v26) = val_main_v26 (F := F) x1)
  (h63 : W (Proc.devRef .tc main_v63) = val_main_v70 (F := F) x0 x1 x2 x3 x4 x5 x6)
  (ha7 : W (Proc.devRef .tc main_arg7) = x7)

include h3 h6 h26 h63 ha7 in
/-- The pre-softmax array: the second aggregation plus the bias. -/
theorem last_logits : StableHlo.after hostOps2 W (Proc.devRef .tc main_v79) = val_main_v86 (F := F) x0 x1 x2 x3 x4 x5 x6 x7 := by
  after_results_simp
  rw [h3, h6, h26, h63, ha7]
  rfl

end Last

/-- The row-wise log-softmax, from any contents, as the reference's stage of the contents of the pre-softmax buffer. -/
theorem last_softmax (W : Valuation τ sig (Elt F))
    (x0 : (⟨Cert.ReferenceIdeal.S100000x512, .f32⟩ : BufTy).Contents (Elt F)) (x1 : (⟨Cert.ReferenceIdeal.S2x3200000, .i32⟩ : BufTy).Contents (Elt F))
    (x2 : (⟨Cert.ReferenceIdeal.S512x16, .f32⟩ : BufTy).Contents (Elt F)) (x3 x4 x5 : (⟨Cert.ReferenceIdeal.S16, .f32⟩ : BufTy).Contents (Elt F))
    (x6 : (⟨Cert.ReferenceIdeal.S16x2, .f32⟩ : BufTy).Contents (Elt F)) (x7 : (⟨Cert.ReferenceIdeal.S2, .f32⟩ : BufTy).Contents (Elt F))
    (h79 : W (Proc.devRef .tc main_v79) = val_main_v86 (F := F) x0 x1 x2 x3 x4 x5 x6 x7) :
    StableHlo.after hostOps2_1 W (Proc.devRef .tc main_v80) = val_main_v87 (F := F) x0 x1 x2 x3 x4 x5 x6 x7 := by
  after_results_simp
  simp only [cast_eq]
  rw [h79]
  rfl

end Cert.KernelIdeal.HostChain

end
-- ==== Proof.LibPlainMatmul.lean ====
/-
  A plain matrix product read at an entry.

  For the dimension numbers "contract the left operand's second axis with the right operand's first" an `[M, K]` by
  `[K, N]` product, accumulated into a zero array, has at row `p` and column `c` the entry
  `∑ k, W p k · X k c` over the extended reals: the contraction position is its one coordinate `k`, the left operand is
  read at `(p, k)` and the right one at `(k, c)`. The same reading holds of a host `dot_general` with those dimension
  numbers, which has no accumulator.
-/
import Idealize.ShloMosaic.PureOps.Ideal.Laws
import Idealize.ShloMosaic.Lib.ValueIdx

noncomputable section

namespace Cert.LibPlainMatmul

open Idealize.ShloMosaic Idealize.ShloMosaic.ValueIdx
open scoped BigOperators

variable (M K N : ℕ)

/-- The left operand's row coordinate is the result's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column coordinate is the contraction position. -/
theorem lhs_col (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- The right operand's row coordinate is the contraction position. -/
theorem rhs_row (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- The right operand's column coordinate is the result's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- The sum over the contraction positions, re-indexed by the one coordinate. -/
theorem sum_contr {φ₁ φ₂ : FTy} (W : FVec Ideal ⟨2, ![M, K]⟩ φ₁) (X : FVec Ideal ⟨2, ![K, N]⟩ φ₂) (p : Fin M) (c : Fin N) :
    (∑ q : (DotDims.plain M K N).contr.Idx,
        W ((DotDims.plain M K N).lhsIdx (ix2 p c) q) * X ((DotDims.plain M K N).rhsIdx (ix2 p c) q))
      = ∑ k : Fin K, W (ix2 p k) * X (ix2 k c) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p c) ((contrEquiv1 (DotDims.plain M K N) K rfl rfl).symm k) = ix2 p k :=
    funext fun a => Fin.ext (by
      match a with
      | ⟨0, _⟩ => exact lhs_row M K N _ _
      | ⟨1, _⟩ => exact (lhs_col M K N _ _).trans hk)
  have er : (DotDims.plain M K N).rhsIdx (ix2 p c) ((contrEquiv1 (DotDims.plain M K N) K rfl rfl).symm k) = ix2 k c :=
    funext fun a => Fin.ext (by
      match a with
      | ⟨0, _⟩ => exact (rhs_row M K N _ _).trans hk
      | ⟨1, _⟩ => exact rhs_col M K N _ _)
  rw [el, er]

/-- A kernel's matrix product into a zero accumulator, at an entry. -/
theorem matmul_zero_apply {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, W (ix2 p k) * X (ix2 k c) := by
  simp only [matmul]
  rw [Ideal.matmul_constant_zero_apply]
  exact sum_contr M K N W X p c

/-- The same with each product's factors swapped: the form in which a product computed in a transposed layout
    (`W · Xᵀ` laid out as features by batch) meets the row-major product `X · Wᵀ`. -/
theorem matmul_zero_apply_comm {φ₁ φ₂ : FTy} (prec : Option ContractPrecision) (W : FVec Ideal ⟨2, ![M, K]⟩ φ₁)
    (X : FVec Ideal ⟨2, ![K, N]⟩ φ₂) (p : Fin M) (c : Fin N) :
    matmul (DotDims.plain M K N) prec W X (constant (F := Ideal) ⟨2, ![M, N]⟩ .f32 0x00000000#32) (ix2 p c)
      = ∑ k : Fin K, X (ix2 k c) * W (ix2 p k) := by
  rw [matmul_zero_apply]
  exact Finset.sum_congr rfl fun k _ => mul_comm _ _

/-- A host product, at an entry. -/
theorem dotGeneral_apply {φ₁ φ₂ : FTy} (prec : Option ContractPrecision) (W : FVec Ideal ⟨2, ![M, K]⟩ φ₁)
    (X : FVec Ideal ⟨2, ![K, N]⟩ φ₂) (p : Fin M) (c : Fin N) :
    Host.dotGeneral (DotDims.plain M K N) prec W X (ix2 p c) = ∑ k : Fin K, W (ix2 p k) * X (ix2 k c) := by
  simp only [Host.dotGeneral]
  rw [Ideal.dotGeneral_apply]
  exact sum_contr M K N W X p c

end Cert.LibPlainMatmul

end
-- ==== Proof.Matmul1Value.lean ====
/-
  The first projection, as one array.

  The first kernel multiplies the node features `x` ([100000, 512]) into the first weight matrix `W₁` ([512, 16])
  4000 rows at a time: grid point `t` (of 25) reads rows `4000·t … 4000·t + 3999` of `x` and the whole of `W₁`,
  forms their product into a zero accumulator, and writes it back as rows `4000·t … 4000·t + 3999` of the result.
  Over the extended reals the narrowing of the operands is the identity and the product at `(p, q)` is
  `Σ_{k < 512} x (p, k) · W₁ (k, q)`; the 25 row blocks tile the result, so the array the region leaves is the
  reference's `dot_general` of the two arrays the region finds, whatever those are.
-/
import proofs.«156838_j27968827031806_1_alg».proof.Proof.Gen.KernelIdeal.Frame
import proofs.«156838_j27968827031806_1_alg».proof.Proof.RefRead
import proofs.«156838_j27968827031806_1_alg».proof.Proof.LibPlainMatmul
import Idealize.ShloMosaic.Lib.Pipeline.Value
import Idealize.ShloMosaic.Lib.ValueIdx
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

namespace Matmul1

-- the contents of the TensorCore's buffers when the region is entered: anything
variable (V : (c : Dev nD) → (b : Ref sig .tc) → Buf (Elt Ideal) ((c : Thread nD τ).loc b))

/-! ## One block's product at an entry -/

/-- The block product's dimension numbers are the plain ones: contract the left operand's columns with the right
    operand's rows. -/
theorem dims_plain : dot_S4000x512_S512x16_S4000x16_1_0_0_1_n_n = DotDims.plain 4000 512 16 := rfl

/-- Entry `(p, q)` of what a grid point stores: `Σ_{k < 512} x₀ (p, k) · x₂ (k, q)` of the two blocks it loaded (the
    narrowing of each operand is the identity over the extended reals, and the accumulator is zero). -/
theorem block_product_apply (x0 : Vec Ideal S4000x512 .f32) (x2 : Vec Ideal S512x16 .f32) (p : Fin 4000) (q : Fin 16) :
    k0_pay1 (F := Ideal) x0 x2 (ix2 p q) = ∑ k : Fin 512, x0 (ix2 p k) * x2 (ix2 k q) := by
  unfold k0_pay1
  rw [dims_plain]
  exact Cert.LibPlainMatmul.matmul_zero_apply 4000 512 16 none _ _ p q

/-- One grid point's product against the whole product: if the left block is rows `4000·r …` of `a0` and the right
    block is `a2`, entry `j` of the block product is entry `(4000·r + j 0, j 1)` of the product of `a0` and `a2`. -/
theorem point_product (x0 : Vec Ideal S4000x512 .f32) (x2 : Vec Ideal S512x16 .f32)
    (a0 : (⟨Cert.ReferenceIdeal.S100000x512, .f32⟩ : BufTy).Contents (Elt Ideal))
    (a2 : (⟨Cert.ReferenceIdeal.S512x16, .f32⟩ : BufTy).Contents (Elt Ideal)) (r : Nat)
    (h0 : ∀ (x : S4000x512.Idx) (i : S100000x512.Idx), (i 0).val = r * 4000 + (x 0).val → (i 1).val = (x 1).val → x0 x = a0 i)
    (h2 : ∀ x : S512x16.Idx, x2 x = a2 x)
    (j : S4000x16.Idx) (i : S100000x16.Idx) (hi0 : (i 0).val = r * 4000 + (j 0).val) (hi1 : (i 1).val = (j 1).val) :
    k0_pay1 (F := Ideal) x0 x2 j = Cert.ReferenceIdeal.ReadP.val_main_v27 (F := Ideal) a0 a2 i := by
  obtain ⟨p, q, rfl⟩ : ∃ (p : Fin 4000) (q : Fin 16), j = ix2 p q := ⟨j 0, j 1, eq_ix2 j⟩
  rw [block_product_apply, Cert.ReferenceIdeal.ReadP.val_main_v27_apply]
  refine Finset.sum_congr rfl fun k _ => ?_
  rw [h0 (ix2 p k) (Cert.ReferenceIdeal.ReadP.lidx_main_v27 i k) hi0 rfl, h2]
  congr 1
  refine congrArg a2 (funext fun a => Fin.ext ?_)
  match a with
  | ⟨0, _⟩ => rfl
  | ⟨1, _⟩ => exact hi1.symm

/-! ## The windows' blocks as pieces of the arrays -/

theorem zero_offsets : (![0, 0] : Fin 2 → Nat) = fun _ => 0 := funext fun a => by fin_cases a <;> rfl

/-- The index maps over the grid: at point `t` the features' window and the result's window are at row block `t`,
    column block 0; the weights' window is the whole matrix. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The features' block at point `t` is rows `4000·t … 4000·t + 3999` of the features array. -/
theorem rows_block_apply (c : Dev nD) (t : Fin cfg0.N) (x : S4000x512.Idx) (i : S100000x512.Idx)
    (h0 : (i 0).val = t.val * 4000 + (x 0).val) (h1 : (i 1).val = (x 1).val) :
    (iblk0 V c 0 t : Vec Ideal S4000x512 .f32) x = (V c main_arg0 : S100000x512.Idx → Elt Ideal .f32) i := by
  obtain ⟨e0, e1, -⟩ := index_facts t
  unfold iblk0
  rw [View.read_apply]
  show V c main_arg0 _ = V c main_arg0 _
  congr 1
  funext a
  apply Fin.ext
  match a with
  | ⟨0, _⟩ => show win0_0.index t 0 * 4000 + 1 * (x 0).val = (i 0).val; rw [e0, h0]; omega
  | ⟨1, _⟩ => show win0_0.index t 1 * 512 + 1 * (x 1).val = (i 1).val; rw [e1, h1]; omega

/-- The weights' block at every point is the weights array. -/
theorem weights_block_apply (c : Dev nD) (t : Fin cfg0.N) (x : S512x16.Idx) :
    (iblk0 V c 1 t : Vec Ideal S512x16 .f32) x = (V c main_arg2 : S512x16.Idx → Elt Ideal .f32) x := by
  obtain ⟨-, -, e0, e1, -⟩ := index_facts t
  unfold iblk0
  rw [View.read_apply]
  show V c main_arg2 _ = V c main_arg2 _
  congr 1
  funext a
  apply Fin.ext
  match a with
  | ⟨0, _⟩ => show win0_1.index t 0 * 512 + 1 * (x 0).val = (x 0).val; rw [e0]; omega
  | ⟨1, _⟩ => show win0_1.index t 1 * 16 + 1 * (x 1).val = (x 1).val; rw [e1]; omega

/-! ## From the blocks to the array -/

/-- What point `t` writes back is block `t` of the product of the two arrays the region finds. -/
theorem writeback (c : Dev nD) (t : Fin cfg0.N) :
    (dat0 V c).flushed 2 t = ((cfg0.win 2).blk t).view.read (Elt Ideal)
      (Cert.ReferenceIdeal.ReadP.val_main_v27 (F := Ideal) (V c main_arg0) (V c main_arg2)) := by
  show (cfg0.win 2).cut (grid0.coords t) ((dat0 V c).after 2 t) = _
  rw [after0_2]
  unfold out0_2
  rw [View.canon_unit_zero zero_offsets]
  simp only [View.ld_unit_zero (S := S4000x512) zero_offsets, View.ld_unit_zero (S := S512x16) zero_offsets]
  obtain ⟨-, -, -, -, e0, e1⟩ := index_facts t
  funext j
  refine point_product _ _ _ _ t.val (fun x i h0 h1 => rows_block_apply V c t x i h0 h1)
    (fun x => weights_block_apply V c t x) j _ ?_ ?_
  · show win0_2.index t (0 : Fin 2) * 4000 + 1 * (j 0).val = _
    rw [e0]; omega
  · show win0_2.index t (1 : Fin 2) * 16 + 1 * (j 1).val = _
    rw [e1]; omega

/-- An index of the result is in point `t`'s block iff each coordinate is in the block's range on its axis. -/
theorem mem_block (t : Fin cfg0.N) (i : S100000x16.Idx) :
    i ∈ ((cfg0.win 2).blk t).view.set ↔ ∀ a : Fin 2, win0_2.index t a * S4000x16.size a ≤ (i a).val
      ∧ (i a).val < win0_2.index t a * S4000x16.size a + S4000x16.size a := by
  show i ∈ ((View.whole main_v27).slice (win0_2.rect t)).set ↔ _
  rw [View.set_slice_whole, Rect.mem_set_unit]
  exact Iff.rfl

/-- The 25 row blocks tile the result: row `n` is in the block of point `n / 4000`. -/
theorem covered (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  obtain ⟨t, ht⟩ : ∃ t : Fin cfg0.N, t.val = (i 0).val / 4000 :=
    ⟨⟨(i 0).val / 4000, by rw [show cfg0.N = 25 from N_0]; omega⟩, rfl⟩
  obtain ⟨-, -, -, -, e0, e1⟩ := index_facts t
  refine ⟨t, flush0_2 t, ?_⟩
  rw [mem_block]
  intro a
  match a with
  | ⟨0, _⟩ =>
    show win0_2.index t (0 : Fin 2) * 4000 ≤ (i 0).val ∧ (i 0).val < win0_2.index t (0 : Fin 2) * 4000 + 4000
    rw [e0, ht]; omega
  | ⟨1, _⟩ =>
    show win0_2.index t (1 : Fin 2) * 16 ≤ (i 1).val ∧ (i 1).val < win0_2.index t (1 : Fin 2) * 16 + 16
    rw [e1]; omega

end Matmul1

/-- THE ARRAY the first region leaves in its result: the product of the features array and the first weight matrix as
    the region finds them, whatever the buffers hold when it is entered. -/
theorem matmul1_array (V : (c : Dev nD) → (b : Ref sig .tc) → Buf (Elt Ideal) ((c : Thread nD τ).loc b)) (c : Dev nD) :
    (Cert.KernelIdeal.Gen.dat0 (F := Ideal) V c).arrAt 2 cfg0.N
      = Cert.ReferenceIdeal.ReadP.val_main_v27 (F := Ideal) (V c main_arg0) (V c main_arg2) :=
  (dat0 V c).arrAt_eq_of_cover 2 _ (fun t _ => Matmul1.writeback V c t) Matmul1.covered

end Cert.KernelIdeal.RegionValue

end
-- ==== Proof.Spec.lean ====
/-
  The one function of the second kernel: a row of the hidden array is scaled and shifted column by
  column, clamped below at zero, and multiplied into the second weight matrix.
    bnMatmul h sc sh w (n, j) = Σ_{k < 16} max (h (n, k) · sc (0, k) + sh (0, k)) 0 · w (k, j)
  over the extended reals.
-/
import Idealize.ShloMosaic.PureOps.Ideal
import Idealize.ShloMosaic.Lib.ValueIdx

noncomputable section

namespace Cert.Spec

open Idealize.ShloMosaic Idealize.ShloMosaic.ValueIdx

/-- Row `n`, column `j` of the second projection: the sum over the sixteen hidden columns `k` of
    `max (h (n,k) · sc (0,k) + sh (0,k)) 0 · w (k,j)`. -/
def bnMatmul (h : (⟨2, ![100000, 16]⟩ : Shape).Idx → EReal) (sc sh : (⟨2, ![1, 16]⟩ : Shape).Idx → EReal)
    (w : (⟨2, ![16, 2]⟩ : Shape).Idx → EReal) : (⟨2, ![100000, 2]⟩ : Shape).Idx → EReal :=
  fun i => ∑ k : Fin 16,
    max (h (ix2 (⟨(i 0).val, idx2_lt0 i⟩ : Fin 100000) k) * sc (ix2 (0 : Fin 1) k) + sh (ix2 (0 : Fin 1) k)) 0
      * w (ix2 k (⟨(i 1).val, idx2_lt1 i⟩ : Fin 2))

end Cert.Spec

end
-- ==== Proof.BnMatmul2Value.lean ====
/-
  The second projection, as one array.

  The second kernel takes the hidden array `h` ([100000, 16]) 4000 rows at a time: grid point `t` (of 25) reads rows
  `4000·t … 4000·t + 3999` of `h`, the whole scale row and shift row ([1, 16] each) and the whole second weight matrix
  `W₂` ([16, 2]); it scales and shifts each row column by column, clamps below at zero, multiplies into `W₂` with a
  zero accumulator, and writes the product back as rows `4000·t … 4000·t + 3999` of the result. Over the extended
  reals the narrowing of the operands is the identity, so entry `(n, j)` of the result is
  `Σ_{k < 16} max (h (n, k) · sc (0, k) + sh (0, k)) 0 · W₂ (k, j)`; the 25 row blocks tile the result, so the array
  the region leaves is that function of the four arrays the region finds, whatever those are.
-/
import proofs.«156838_j27968827031806_1_alg».proof.Proof.Gen.KernelIdeal.Frame
import proofs.«156838_j27968827031806_1_alg».proof.Proof.Spec
import proofs.«156838_j27968827031806_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

namespace BnMatmul2

-- the contents of the TensorCore's buffers when the region is entered: anything
variable (V : (c : Dev nD) → (b : Ref sig .tc) → Buf (Elt Ideal) ((c : Thread nD τ).loc b))

/-! ## One block's value at an entry -/

/-- The block product's dimension numbers are the plain ones: contract the left operand's columns with the right
    operand's rows. -/
theorem dims_plain : dot_S4000x16_S16x2_S4000x2_1_0_0_1_n_n = DotDims.plain 4000 16 2 := rfl

/-- Entry `(p, q)` of what a grid point stores, from the four blocks it loaded: the sum over the sixteen hidden
    columns `k` of `max (x₀ (p, k) · x₂ (0, k) + x₆ (0, k)) 0 · x₁₃ (k, q)` (the scale and shift rows are repeated down
    the 4000 rows, the clamp is against the constant zero, the narrowing of each operand is the identity over the
    extended reals, and the accumulator is zero). -/
theorem block_value_apply (x0 : Vec Ideal S4000x16 .f32) (x2 x6 : Vec Ideal S1x16 .f32) (x13 : Vec Ideal S16x2 .f32)
    (p : Fin 4000) (q : Fin 2) :
    k1_pay1 (F := Ideal) x0 x2 x6 x13 (ix2 p q)
      = ∑ k : Fin 16, max (x0 (ix2 p k) * x2 (ix2 (0 : Fin 1) k) + x6 (ix2 (0 : Fin 1) k)) 0 * x13 (ix2 k q) := by
  unfold k1_pay1
  rw [dims_plain]
  refine (Cert.LibPlainMatmul.matmul_zero_apply 4000 16 2 none _ _ p q).trans ?_
  refine Finset.sum_congr rfl fun k _ => ?_
  rw [truncf_apply, truncf_apply, maximumf_apply, addf_apply, mulf_apply, broadcast_apply, shapeCast_self, shapeCast_self,
    shapeCast_self, broadcastTo_1b_ab_apply, broadcastTo_1b_ab_apply]
  rw [show (Scalar.ofBits .f32 0x00000000#32 : Ideal .f32) = 0 from Ideal.ofBits_zero_f32]

/-- One grid point's value against the whole-array function: if the hidden block is rows `4000·r …` of `h` and the
    other three blocks are `sc`, `sh` and `w`, entry `j` of the block's value is entry `(4000·r + j 0, j 1)` of
    `bnMatmul h sc sh w`. -/
theorem point_value (x0 : Vec Ideal S4000x16 .f32) (x2 x6 : Vec Ideal S1x16 .f32) (x13 : Vec Ideal S16x2 .f32)
    (h : S100000x16.Idx → EReal) (sc sh : S1x16.Idx → EReal) (w : S16x2.Idx → EReal) (r : Nat)
    (h0 : ∀ (x : S4000x16.Idx) (i : S100000x16.Idx), (i 0).val = r * 4000 + (x 0).val → (i 1).val = (x 1).val → x0 x = h i)
    (h2 : ∀ x : S1x16.Idx, x2 x = sc x) (h6 : ∀ x : S1x16.Idx, x6 x = sh x) (h13 : ∀ x : S16x2.Idx, x13 x = w x)
    (j : S4000x2.Idx) (i : S100000x2.Idx) (hi0 : (i 0).val = r * 4000 + (j 0).val) (hi1 : (i 1).val = (j 1).val) :
    k1_pay1 (F := Ideal) x0 x2 x6 x13 j = Cert.Spec.bnMatmul h sc sh w i := by
  obtain ⟨p, q, rfl⟩ : ∃ (p : Fin 4000) (q : Fin 2), j = ix2 p q := ⟨j 0, j 1, eq_ix2 j⟩
  rw [block_value_apply]
  unfold Cert.Spec.bnMatmul
  refine Finset.sum_congr rfl fun k _ => ?_
  have e : (ix2 k q : S16x2.Idx) = ix2 k (⟨(i 1).val, idx2_lt1 i⟩ : Fin 2) := by
    funext a
    apply Fin.ext
    match a with
    | ⟨0, _⟩ => rfl
    | ⟨1, _⟩ => exact hi1.symm
  rw [h0 (ix2 p k) (ix2 (⟨(i 0).val, idx2_lt0 i⟩ : Fin 100000) k) hi0 rfl, h2, h6, h13, e]

/-! ## The windows' blocks as pieces of the arrays -/

theorem zero_offsets : (![0, 0] : Fin 2 → Nat) = fun _ => 0 := funext fun a => by fin_cases a <;> rfl

/-- The index maps over the grid: at point `t` the hidden array's window and the result's window are at row block
    `t`, column block 0; the scale, shift and weight windows are whole arrays. -/
theorem index_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The hidden array's block at point `t` is its rows `4000·t … 4000·t + 3999`. -/
theorem rows_block_apply (c : Dev nD) (t : Fin cfg1.N) (x : S4000x16.Idx) (i : S100000x16.Idx)
    (h0 : (i 0).val = t.val * 4000 + (x 0).val) (h1 : (i 1).val = (x 1).val) :
    (iblk1 V c 0 t : Vec Ideal S4000x16 .f32) x = (V c main_v43 : S100000x16.Idx → Elt Ideal .f32) i := by
  obtain ⟨e0, e1, -⟩ := index_facts t
  unfold iblk1
  rw [View.read_apply]
  show V c main_v43 _ = V c main_v43 _
  congr 1
  funext a
  apply Fin.ext
  match a with
  | ⟨0, _⟩ => show win1_0.index t 0 * 4000 + 1 * (x 0).val = (i 0).val; rw [e0, h0]; omega
  | ⟨1, _⟩ => show win1_0.index t 1 * 16 + 1 * (x 1).val = (i 1).val; rw [e1, h1]; omega

/-- The scale row's block at every point is the scale row. -/
theorem scale_block_apply (c : Dev nD) (t : Fin cfg1.N) (x : S1x16.Idx) :
    (iblk1 V c 1 t : Vec Ideal S1x16 .f32) x = (V c main_v58 : S1x16.Idx → Elt Ideal .f32) x := by
  obtain ⟨-, -, e0, e1, -⟩ := index_facts t
  unfold iblk1
  rw [View.read_apply]
  show V c main_v58 _ = V c main_v58 _
  congr 1
  funext a
  apply Fin.ext
  match a with
  | ⟨0, _⟩ => show win1_1.index t 0 * 1 + 1 * (x 0).val = (x 0).val; rw [e0]; omega
  | ⟨1, _⟩ => show win1_1.index t 1 * 16 + 1 * (x 1).val = (x 1).val; rw [e1]; omega

/-- The shift row's block at every point is the shift row. -/
theorem shift_block_apply (c : Dev nD) (t : Fin cfg1.N) (x : S1x16.Idx) :
    (iblk1 V c 2 t : Vec Ideal S1x16 .f32) x = (V c main_v62 : S1x16.Idx → Elt Ideal .f32) x := by
  obtain ⟨-, -, -, -, e0, e1, -⟩ := index_facts t
  unfold iblk1
  rw [View.read_apply]
  show V c main_v62 _ = V c main_v62 _
  congr 1
  funext a
  apply Fin.ext
  match a with
  | ⟨0, _⟩ => show win1_2.index t 0 * 1 + 1 * (x 0).val = (x 0).val; rw [e0]; omega
  | ⟨1, _⟩ => show win1_2.index t 1 * 16 + 1 * (x 1).val = (x 1).val; rw [e1]; omega

/-- The weights' block at every point is the weights array. -/
theorem weights_block_apply (c : Dev nD) (t : Fin cfg1.N) (x : S16x2.Idx) :
    (iblk1 V c 3 t : Vec Ideal S16x2 .f32) x = (V c main_arg6 : S16x2.Idx → Elt Ideal .f32) x := by
  obtain ⟨-, -, -, -, -, -, e0, e1, -⟩ := index_facts t
  unfold iblk1
  rw [View.read_apply]
  show V c main_arg6 _ = V c main_arg6 _
  congr 1
  funext a
  apply Fin.ext
  match a with
  | ⟨0, _⟩ => show win1_3.index t 0 * 16 + 1 * (x 0).val = (x 0).val; rw [e0]; omega
  | ⟨1, _⟩ => show win1_3.index t 1 * 2 + 1 * (x 1).val = (x 1).val; rw [e1]; omega

/-! ## From the blocks to the array -/

/-- What point `t` writes back is block `t` of `bnMatmul` of the four arrays the region finds. -/
theorem writeback (c : Dev nD) (t : Fin cfg1.N) :
    (dat1 V c).flushed 4 t = ((cfg1.win 4).blk t).view.read (Elt Ideal)
      (Cert.Spec.bnMatmul (V c main_v43) (V c main_v58) (V c main_v62) (V c main_arg6)) := by
  show (cfg1.win 4).cut (grid1.coords t) ((dat1 V c).after 4 t) = _
  rw [after1_4]
  unfold out1_4
  rw [View.canon_unit_zero zero_offsets]
  simp only [View.ld_unit_zero (S := S4000x16) zero_offsets, View.ld_unit_zero (S := S1x16) zero_offsets,
    View.ld_unit_zero (S := S16x2) zero_offsets]
  obtain ⟨-, -, -, -, -, -, -, -, e0, e1⟩ := index_facts t
  funext j
  refine point_value _ _ _ _ _ _ _ _ t.val (fun x i h0 h1 => rows_block_apply V c t x i h0 h1)
    (fun x => scale_block_apply V c t x) (fun x => shift_block_apply V c t x) (fun x => weights_block_apply V c t x) j _ ?_ ?_
  · show win1_4.index t (0 : Fin 2) * 4000 + 1 * (j 0).val = _
    rw [e0]; omega
  · show win1_4.index t (1 : Fin 2) * 2 + 1 * (j 1).val = _
    rw [e1]; omega

/-- An index of the result is in point `t`'s block iff each coordinate is in the block's range on its axis. -/
theorem mem_block (t : Fin cfg1.N) (i : S100000x2.Idx) :
    i ∈ ((cfg1.win 4).blk t).view.set ↔ ∀ a : Fin 2, win1_4.index t a * S4000x2.size a ≤ (i a).val
      ∧ (i a).val < win1_4.index t a * S4000x2.size a + S4000x2.size a := by
  show i ∈ ((View.whole main_v63).slice (win1_4.rect t)).set ↔ _
  rw [View.set_slice_whole, Rect.mem_set_unit]
  exact Iff.rfl

/-- The 25 row blocks tile the result: row `n` is in the block of point `n / 4000`. -/
theorem covered (i : S100000x2.Idx) :
    ∃ t : Fin cfg1.N, (cfg1.win 4).flush t = true ∧ i ∈ ((cfg1.win 4).blk t).view.set := by
  have hi0 : (i 0).val < 100000 := (i 0).isLt
  have hi1 : (i 1).val < 2 := (i 1).isLt
  obtain ⟨t, ht⟩ : ∃ t : Fin cfg1.N, t.val = (i 0).val / 4000 :=
    ⟨⟨(i 0).val / 4000, by rw [show cfg1.N = 25 from N_1]; omega⟩, rfl⟩
  obtain ⟨-, -, -, -, -, -, -, -, e0, e1⟩ := index_facts t
  refine ⟨t, flush1_4 t, ?_⟩
  rw [mem_block]
  intro a
  match a with
  | ⟨0, _⟩ =>
    show win1_4.index t (0 : Fin 2) * 4000 ≤ (i 0).val ∧ (i 0).val < win1_4.index t (0 : Fin 2) * 4000 + 4000
    rw [e0, ht]; omega
  | ⟨1, _⟩ =>
    show win1_4.index t (1 : Fin 2) * 2 ≤ (i 1).val ∧ (i 1).val < win1_4.index t (1 : Fin 2) * 2 + 2
    rw [e1]; omega

end BnMatmul2

/-- THE ARRAY the second region leaves in its result: `bnMatmul` of the hidden array, the scale row, the shift row and
    the second weight matrix as the region finds them, whatever the buffers hold when it is entered. -/
theorem bn_matmul2_array (V : (c : Dev nD) → (b : Ref sig .tc) → Buf (Elt Ideal) ((c : Thread nD τ).loc b)) (c : Dev nD) :
    (Cert.KernelIdeal.Gen.dat1 (F := Ideal) V c).arrAt 4 cfg1.N
      = Cert.Spec.bnMatmul (V c main_v43) (V c main_v58) (V c main_v62) (V c main_arg6) :=
  (dat1 V c).arrAt_eq_of_cover 4 _ (fun t _ => BnMatmul2.writeback V c t) BnMatmul2.covered

end Cert.KernelIdeal.RegionValue

end
-- ==== Proof.LibScatterAddRows.lean ====
/-
  The host's accumulating row scatter read at an index, generic in the sizes.

  `x.at[idx].add(upd)` for an integer array `idx : [K]` lowers to `stablehlo.scatter` with an `add` body over the
  scatter indices reshaped to `[K, 1]` (index_vector_dim 1, inserted_window_dims [0], scatter_dims_to_operand_dims [0]),
  with no window axis for a flat operand `[N]` (updates `[K]`) and the window axis 1 for a matrix operand `[N, C]`
  (updates `[K, C]`, update_window_dims [1]). At the ideal instance the result element is the operand's plus the exact
  sum of the updates that land on it. Update `e` lands on row `i` exactly when its index word, read SIGNED and NOT
  clamped, is `i`; an update whose index is outside `[0, N)` lands nowhere and adds nothing.

  The dimension records are abbreviations over their well-formedness fact, so that a program's record with the same
  field literals is the abbreviation at the program's fact, by unfolding.
-/
import Idealize.ShloMosaic.Lib.ValueIdx

noncomputable section

open scoped BigOperators

namespace Cert.LibScatterAddRows

open Idealize.ShloMosaic Idealize.ShloMosaic.ValueIdx

/-! ## A rank-1 index set is its one coordinate range -/

/-- A rank-1 index set is its coordinate range … -/
def idxEquiv1 {n : Nat} : (⟨1, ![n]⟩ : Shape).Idx ≃ Fin n where
  toFun j := j 0
  invFun e := ix1 e
  left_inv j := (eq_ix1 j).symm
  right_inv _ := rfl

/-- … so a sum over it is the sum over the coordinate. -/
theorem sum_idx1 {M : Type*} [AddCommMonoid M] {n : Nat} (f : (⟨1, ![n]⟩ : Shape).Idx → M) :
    ∑ j, f j = ∑ e : Fin n, f (ix1 e) := by
  rw [← Equiv.sum_comp (idxEquiv1 (n := n)).symm f]
  rfl

/-! ## Where an update lands, for any dimension numbers -/

/-- An update index `j` lands on the operand index `i` exactly when, on every operand axis, the window's start (read
    signed, not clamped) plus the window coordinate is `i`'s coordinate. -/
theorem resultIdx?_eq_some_iff {s si u : Shape} (d : ScatterDims s si u) {w : Nat} (j : u.Idx) (idx : IVec si w)
    (i : s.Idx) :
    d.resultIdx? j idx = some i ↔ ∀ a, d.start j idx a + (d.window j a : Int) = ((i a).val : Int) := by
  unfold ScatterDims.resultIdx?
  constructor
  · intro h a
    split at h
    · rename_i hall
      have h' := Option.some.inj h
      have ha := congrArg Fin.val (congrFun h' a)
      simp only at ha
      have := hall a
      omega
    · exact absurd h (by simp)
  · intro h
    have hall : ∀ a, 0 ≤ d.start j idx a + d.window j a ∧ d.start j idx a + d.window j a < s.size a := by
      intro a
      have := h a
      have := (i a).isLt
      omega
    rw [dif_pos hall]
    congr 1
    funext a
    apply Fin.ext
    have := h a
    simp only
    omega

/-- An operand axis receives a window coordinate exactly when it is not an inserted axis. -/
theorem mem_sKept {s si u : Shape} (d : ScatterDims s si u) (a : Fin s.rank) :
    a ∈ d.sKept ↔ a ∉ d.insertedWindowDims := by
  simp [ScatterDims.sKept, Shape.kept, List.mem_filter, List.mem_finRange]

/-! ## A flat operand: `[N]` at indices `[K, 1]` with updates `[K]` -/

/-- The dimension numbers of a scatter into a flat operand `[N]` at `K` scalar indices (as `[K, 1]`) with updates
    `[K]`: no window axis, the operand's one axis inserted and named by the index. -/
abbrev vecDims (N K : Nat) (wf : ScatterDims.WF ⟨1, ![N]⟩ ⟨2, ![K, 1]⟩ ⟨1, ![K]⟩ [] [0] [0] 1) :
    ScatterDims ⟨1, ![N]⟩ ⟨2, ![K, 1]⟩ ⟨1, ![K]⟩ :=
  ⟨[], [0], [0], 1, wf⟩

/-- Update `e`'s window starts at its index word `idx[e, 0]`, read signed. -/
theorem vec_start {N K w : Nat} (wf : ScatterDims.WF ⟨1, ![N]⟩ ⟨2, ![K, 1]⟩ ⟨1, ![K]⟩ [] [0] [0] 1)
    (idx : IVec ⟨2, ![K, 1]⟩ w) (e : Fin K) :
    (vecDims N K wf).start (ix1 e) idx 0 = (idx (ix2 e 0)).toInt := by
  unfold ScatterDims.start
  rw [dif_pos (show (0 : Fin 1) ∈ (vecDims N K wf).scatterDimsToOperandDims from List.mem_singleton.mpr rfl)]
  have hsi : (vecDims N K wf).siIdx (ix1 e) ⟨List.idxOf (0 : Fin 1) (vecDims N K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- The flat operand's one axis is inserted: the window coordinate on it is zero. -/
theorem vec_window {N K : Nat} (wf : ScatterDims.WF ⟨1, ![N]⟩ ⟨2, ![K, 1]⟩ ⟨1, ![K]⟩ [] [0] [0] 1) (e : Fin K) :
    (vecDims N K wf).window (ix1 e) 0 = 0 := by
  unfold ScatterDims.window
  rw [dif_neg fun h => (mem_sKept _ _).mp h (List.mem_singleton.mpr rfl)]

/-- Update `e` lands on element `i` exactly when its index word, read signed, is `i`. -/
theorem vec_lands_iff {N K w : Nat} (wf : ScatterDims.WF ⟨1, ![N]⟩ ⟨2, ![K, 1]⟩ ⟨1, ![K]⟩ [] [0] [0] 1)
    (idx : IVec ⟨2, ![K, 1]⟩ w) (e : Fin K) (i : Fin N) :
    (vecDims N K wf).resultIdx? (ix1 e) idx = some (ix1 i) ↔ (idx (ix2 e 0)).toInt = (i.val : Int) := by
  rw [resultIdx?_eq_some_iff, Fin.forall_fin_one, vec_start, vec_window]
  simp

/-- THE FLAT SCATTER-ADD READ AT `i`: the operand's element plus the sum, over all `K` updates, of the updates whose
    index word (read signed, not clamped) is `i`; an update indexed outside `[0, N)` contributes to no element. -/
theorem scatterAdd_vec_apply {N K w : Nat} (wf : ScatterDims.WF ⟨1, ![N]⟩ ⟨2, ![K, 1]⟩ ⟨1, ![K]⟩ [] [0] [0] 1)
    (x : FVec Ideal ⟨1, ![N]⟩ .f32) (idx : IVec ⟨2, ![K, 1]⟩ w) (upd : FVec Ideal ⟨1, ![K]⟩ .f32) (i : Fin N) :
    Host.scatterAdd (vecDims N K wf) x idx upd (ix1 i)
      = x (ix1 i) + ∑ e : Fin K, if (idx (ix2 e 0)).toInt = (i.val : Int) then upd (ix1 e) else 0 := by
  show Ideal.hostScatterAdd (vecDims N K wf) x idx upd (ix1 i) = _
  unfold Ideal.hostScatterAdd
  congr 1
  rw [Finset.sum_filter, sum_idx1]
  exact Finset.sum_congr rfl fun e _ => if_congr (vec_lands_iff wf idx e i) rfl rfl

/-! ## A matrix operand: rows of `[N, C]` at indices `[K, 1]` with updates `[K, C]` -/

/-- The dimension numbers of a row scatter into `[N, C]` at `K` scalar row indices (as `[K, 1]`) with updates
    `[K, C]`: the updates' axis 1 is the window, going to the operand's axis 1; the operand's axis 0 is inserted and
    named by the index. -/
abbrev rowDims (N C K : Nat) (wf : ScatterDims.WF ⟨2, ![N, C]⟩ ⟨2, ![K, 1]⟩ ⟨2, ![K, C]⟩ [1] [0] [0] 1) :
    ScatterDims ⟨2, ![N, C]⟩ ⟨2, ![K, 1]⟩ ⟨2, ![K, C]⟩ :=
  ⟨[1], [0], [0], 1, wf⟩

/-- On the row axis, update `(e, k')`'s window starts at its index word `idx[e, 0]`, read signed. -/
theorem row_start0 {N C K w : Nat} (wf : ScatterDims.WF ⟨2, ![N, C]⟩ ⟨2, ![K, 1]⟩ ⟨2, ![K, C]⟩ [1] [0] [0] 1)
    (idx : IVec ⟨2, ![K, 1]⟩ w) (e : Fin K) (k' : Fin C) :
    (rowDims N C K wf).start (ix2 e k') idx 0 = (idx (ix2 e 0)).toInt := by
  unfold ScatterDims.start
  rw [dif_pos (show (0 : Fin 2) ∈ (rowDims N C K wf).scatterDimsToOperandDims from List.mem_singleton.mpr rfl)]
  have hsi : (rowDims N C K wf).siIdx (ix2 e k') ⟨List.idxOf (0 : Fin 2) (rowDims N C K wf).scatterDimsToOperandDims,
      List.idxOf_lt_length_iff.2 (List.mem_singleton.mpr rfl)⟩ = ix2 e 0 := by
    funext b; refine Fin.ext ?_
    match b with
    | ⟨0, _⟩ => rfl
    | ⟨1, _⟩ => rfl
  rw [hsi]

/-- On the column axis no index is read: the window starts at zero. -/
theorem row_start1 {N C K w : Nat} (wf : ScatterDims.WF ⟨2, ![N, C]⟩ ⟨2, ![K, 1]⟩ ⟨2, ![K, C]⟩ [1] [0] [0] 1)
    (idx : IVec ⟨2, ![K, 1]⟩ w) (e : Fin K) (k' : Fin C) :
    (rowDims N C K wf).start (ix2 e k') idx 1 = 0 := by
  unfold ScatterDims.start
  rw [dif_neg (show (1 : Fin 2) ∉ ([0] : List (Fin 2)) by decide)]

/-- The row axis is inserted: the window coordinate on it is zero. -/
theorem row_window0 {N C K : Nat} (wf : ScatterDims.WF ⟨2, ![N, C]⟩ ⟨2, ![K, 1]⟩ ⟨2, ![K, C]⟩ [1] [0] [0] 1)
    (e : Fin K) (k' : Fin C) :
    (rowDims N C K wf).window (ix2 e k') 0 = 0 := by
  unfold ScatterDims.window
  rw [dif_neg fun h => (mem_sKept _ _).mp h (List.mem_singleton.mpr rfl)]

/-- The column axis carries the window: its coordinate is the update's column. -/
theorem row_window1 {N C K : Nat} (wf : ScatterDims.WF ⟨2, ![N, C]⟩ ⟨2, ![K, 1]⟩ ⟨2, ![K, C]⟩ [1] [0] [0] 1)
    (e : Fin K) (k' : Fin C) :
    (rowDims N C K wf).window (ix2 e k') 1 = k'.val := by
  unfold ScatterDims.window
  rw [dif_pos ((mem_sKept _ _).mpr (show (1 : Fin 2) ∉ ([0] : List (Fin 2)) by decide))]
  rfl

/-- Update `(e, k')` lands on element `(i, k)` exactly when its row's index word, read signed, is `i` and its column is
    `k`. -/
theorem row_lands_iff {N C K w : Nat} (wf : ScatterDims.WF ⟨2, ![N, C]⟩ ⟨2, ![K, 1]⟩ ⟨2, ![K, C]⟩ [1] [0] [0] 1)
    (idx : IVec ⟨2, ![K, 1]⟩ w) (e : Fin K) (k' : Fin C) (i : Fin N) (k : Fin C) :
    (rowDims N C K wf).resultIdx? (ix2 e k') idx = some (ix2 i k)
      ↔ (idx (ix2 e 0)).toInt = (i.val : Int) ∧ k' = k := by
  rw [resultIdx?_eq_some_iff, Fin.forall_fin_two, row_start0, row_start1, row_window0, row_window1]
  simp [Fin.ext_iff]

/-- THE ROW SCATTER-ADD READ AT `(i, k)`: the operand's element plus the sum, over all `K` update rows, of column `k`
    of the rows whose index word (read signed, not clamped) is `i`; a row indexed outside `[0, N)` contributes to no
    element. -/
theorem scatterAdd_rows_apply {N C K w : Nat}
    (wf : ScatterDims.WF ⟨2, ![N, C]⟩ ⟨2, ![K, 1]⟩ ⟨2, ![K, C]⟩ [1] [0] [0] 1)
    (x : FVec Ideal ⟨2, ![N, C]⟩ .f32) (idx : IVec ⟨2, ![K, 1]⟩ w) (upd : FVec Ideal ⟨2, ![K, C]⟩ .f32)
    (i : Fin N) (k : Fin C) :
    Host.scatterAdd (rowDims N C K wf) x idx upd (ix2 i k)
      = x (ix2 i k) + ∑ e : Fin K, if (idx (ix2 e 0)).toInt = (i.val : Int) then upd (ix2 e k) else 0 := by
  show Ideal.hostScatterAdd (rowDims N C K wf) x idx upd (ix2 i k) = _
  unfold Ideal.hostScatterAdd
  congr 1
  rw [Finset.sum_filter, sum_idx2]
  refine Finset.sum_congr rfl fun e _ => ?_
  rw [Finset.sum_congr rfl fun k' _ => if_congr (row_lands_iff wf idx e k' i k) rfl rfl]
  by_cases h : (idx (ix2 e 0)).toInt = (i.val : Int)
  · simp only [h, true_and, if_true]
    rw [Finset.sum_ite_eq' Finset.univ k fun k' => upd (ix2 e k')]
    simp
  · simp [h]

end Cert.LibScatterAddRows

end
-- ==== Proof.LibGatherRows.lean ====
/-
  The host's row gather read at an index, generic in the sizes.

  `x[idx]` for an integer array `idx : [K]` lowers to `stablehlo.gather` over the start indices reshaped to `[K, 1]`
  (index_vector_dim 1, collapsed_slice_dims [0], start_index_map [0]): of a flat operand `[N]` with slice sizes `[1]`
  and no offset axis (result `[K]`), of a matrix operand `[N, C]` with slice sizes `[1, C]` and the offset axis 1
  (result `[K, C]`). Result row `e` is the operand's row at the start index `idx[e, 0]`, read as a signed integer and
  CLAMPED into `[0, N − 1]`, as StableHLO's gather clamps every start index.

  The dimension records are abbreviations over their well-formedness fact, so that a program's record with the same
  field literals is the abbreviation at the program's fact, by unfolding.
-/
import Idealize.ShloMosaic.Lib.ValueIdx

noncomputable section

namespace Cert.LibGatherRows

open Idealize.ShloMosaic Idealize.ShloMosaic.ValueIdx

variable {α : Type}

/-! ## A flat operand: `[N]` at start indices `[K, 1]`, result `[K]` -/

/-- The dimension numbers of a gather from a flat operand `[N]` at `K` scalar start indices (as `[K, 1]`): the
    operand's one axis collapsed and named by the index, slices of one element, no offset axis. -/
abbrev vecDims (N K : Nat) (wf : GatherDims.WF ⟨1, ![N]⟩ ⟨2, ![K, 1]⟩ ⟨1, ![K]⟩ [] [0] [] [0] [] 1 ![1]) :
    GatherDims ⟨1, ![N]⟩ ⟨2, ![K, 1]⟩ ⟨1, ![K]⟩ where
  offsetDims := []
  collapsedSliceDims := [0]
  operandBatchingDims := []
  startIndicesBatchingDims := []
  startIndexMap := [0]
  indexVectorDim := 1
  sliceSizes := ![1]
  wf := wf

/-- THE FLAT GATHER READ AT `e`: the operand at the start index `idx[e, 0]`, read signed and clamped into
    `[0, N − 1]`. -/
theorem gather_vec_apply {N K w : Nat} (hN : 0 < N)
    (wf : GatherDims.WF ⟨1, ![N]⟩ ⟨2, ![K, 1]⟩ ⟨1, ![K]⟩ [] [0] [] [0] [] 1 ![1])
    (x : (⟨1, ![N]⟩ : Shape).Idx → α) (idx : IVec ⟨2, ![K, 1]⟩ w) (e : Fin K) :
    Host.gather (vecDims N K wf) x idx (ix1 e)
      = x (ix1 ⟨min (idx (ix2 e 0)).toInt.toNat (N - 1), by omega⟩) := by
  unfold Host.gather
  congr 1
  funext a
  obtain rfl : a = 0 := Subsingleton.elim _ _
  refine Fin.ext ?_
  show (vecDims N K wf).start (ix1 e) idx 0 + (vecDims N K wf).batchCoord (ix1 e) 0
    + (vecDims N K wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecDims N K wf).startIndexMap from List.mem_singleton.mpr rfl)]
  have hsi : (vecDims N K wf).siIdx (ix1 e) ⟨List.idxOf (0 : Fin 1) (vecDims N K wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-! ## A matrix operand: rows of `[N, C]` at start indices `[K, 1]`, result `[K, C]` -/

/-- The dimension numbers of a row gather from `[N, C]` at `K` scalar start indices (as `[K, 1]`): the operand's
    axis 0 collapsed and named by the index, slices of one whole row, the result's axis 1 the offset into the row. -/
abbrev rowDims (N C K : Nat)
    (wf : GatherDims.WF ⟨2, ![N, C]⟩ ⟨2, ![K, 1]⟩ ⟨2, ![K, C]⟩ [1] [0] [] [0] [] 1 ![1, C]) :
    GatherDims ⟨2, ![N, C]⟩ ⟨2, ![K, 1]⟩ ⟨2, ![K, C]⟩ where
  offsetDims := [1]
  collapsedSliceDims := [0]
  operandBatchingDims := []
  startIndicesBatchingDims := []
  startIndexMap := [0]
  indexVectorDim := 1
  sliceSizes := ![1, C]
  wf := wf

/-- On the row axis, result `(e, k)`'s slice starts at the start index `idx[e, 0]`, read signed and clamped into
    `[0, N − 1]`. -/
theorem row_start0 {N C K w : Nat}
    (wf : GatherDims.WF ⟨2, ![N, C]⟩ ⟨2, ![K, 1]⟩ ⟨2, ![K, C]⟩ [1] [0] [] [0] [] 1 ![1, C])
    (idx : IVec ⟨2, ![K, 1]⟩ w) (e : Fin K) (k : Fin C) :
    (rowDims N C K wf).start (ix2 e k) idx 0 = min (idx (ix2 e 0)).toInt.toNat (N - 1) := by
  unfold GatherDims.start
  rw [dif_pos (show (0 : Fin 2) ∈ (rowDims N C K wf).startIndexMap from List.mem_singleton.mpr rfl)]
  have hsi : (rowDims N C K wf).siIdx (ix2 e k) ⟨List.idxOf (0 : Fin 2) (rowDims N C K wf).startIndexMap,
      List.idxOf_lt_length_iff.2 (List.mem_singleton.mpr rfl)⟩ = ix2 e 0 := by
    funext b; refine Fin.ext ?_
    match b with
    | ⟨0, _⟩ => rfl
    | ⟨1, _⟩ => rfl
  rw [hsi]
  rfl

/-- On the column axis no start index is read: the slice starts at zero. -/
theorem row_start1 {N C K w : Nat}
    (wf : GatherDims.WF ⟨2, ![N, C]⟩ ⟨2, ![K, 1]⟩ ⟨2, ![K, C]⟩ [1] [0] [] [0] [] 1 ![1, C])
    (idx : IVec ⟨2, ![K, 1]⟩ w) (e : Fin K) (k : Fin C) :
    (rowDims N C K wf).start (ix2 e k) idx 1 = 0 := by
  unfold GatherDims.start
  rw [dif_neg (show (1 : Fin 2) ∉ ([0] : List (Fin 2)) by decide)]

/-- The row axis is collapsed: no offset on it. -/
theorem row_off0 {N C K : Nat}
    (wf : GatherDims.WF ⟨2, ![N, C]⟩ ⟨2, ![K, 1]⟩ ⟨2, ![K, C]⟩ [1] [0] [] [0] [] 1 ![1, C])
    (e : Fin K) (k : Fin C) :
    (rowDims N C K wf).offCoord (ix2 e k) 0 = 0 :=
  GatherDims.offCoord_eq_zero _ _ _ (fun h => ((GatherDims.mem_sKept _ _).mp h).1 (List.mem_singleton.mpr rfl))

/-- The column axis is the offset axis: its offset is the result's column. -/
theorem row_off1 {N C K : Nat}
    (wf : GatherDims.WF ⟨2, ![N, C]⟩ ⟨2, ![K, 1]⟩ ⟨2, ![K, C]⟩ [1] [0] [] [0] [] 1 ![1, C])
    (e : Fin K) (k : Fin C) :
    (rowDims N C K wf).offCoord (ix2 e k) 1 = k.val := by
  unfold GatherDims.offCoord
  rw [dif_pos ((GatherDims.mem_sKept _ _).mpr
    ⟨show (1 : Fin 2) ∉ ([0] : List (Fin 2)) by decide, List.not_mem_nil⟩)]
  rfl

/-- THE ROW GATHER READ AT `(e, k)`: column `k` of the operand's row at the start index `idx[e, 0]`, read signed and
    clamped into `[0, N − 1]`. -/
theorem gather_rows_apply {N C K w : Nat} (hN : 0 < N)
    (wf : GatherDims.WF ⟨2, ![N, C]⟩ ⟨2, ![K, 1]⟩ ⟨2, ![K, C]⟩ [1] [0] [] [0] [] 1 ![1, C])
    (x : (⟨2, ![N, C]⟩ : Shape).Idx → α) (idx : IVec ⟨2, ![K, 1]⟩ w) (e : Fin K) (k : Fin C) :
    Host.gather (rowDims N C K wf) x idx (ix2 e k)
      = x (ix2 ⟨min (idx (ix2 e 0)).toInt.toNat (N - 1), by omega⟩ k) := by
  unfold Host.gather
  congr 1
  funext a
  refine Fin.ext ?_
  match a with
  | ⟨0, _⟩ =>
    show (rowDims N C K wf).start (ix2 e k) idx 0 + (rowDims N C K wf).batchCoord (ix2 e k) 0
      + (rowDims N C K wf).offCoord (ix2 e k) 0 = _
    rw [GatherDims.batchCoord_eq_zero _ _ _ List.not_mem_nil, row_off0, row_start0]
    rfl
  | ⟨1, _⟩ =>
    show (rowDims N C K wf).start (ix2 e k) idx 1 + (rowDims N C K wf).batchCoord (ix2 e k) 1
      + (rowDims N C K wf).offCoord (ix2 e k) 1 = _
    rw [GatherDims.batchCoord_eq_zero _ _ _ List.not_mem_nil, row_off1, row_start1]
    simp

end Cert.LibGatherRows

end
-- ==== Proof.LibConcatVec.lean ====
/-
  A two-piece concatenation of flat arrays read at an index, generic in the sizes.

  `jnp.concatenate([a, b])` of `a : [A]` and `b : [B]` along axis 0 is the array `[A + B]` whose element `j` is `a[j]`
  for `j < A` and `b[j − A]` from there on. The result's extent is a third size `C` with `A + B = C`, so that the
  statement applies where a program writes the extent as one literal.
-/
import Idealize.ShloMosaic.Lib.ValueIdx
import Idealize.ShloMosaic.Lib.Pipeline.Value

noncomputable section

namespace Cert.LibConcatVec

open Idealize.ShloMosaic Idealize.ShloMosaic.ValueIdx

variable {α : Type}

/-- THE TWO-PIECE FLAT CONCATENATION READ AT `j`: the first piece at `j` while `j` is below the first extent `A`,
    from there on the second piece at `j − A`. (`hC` says the result's extent `C` is the two extents' sum; `h` is the
    concatenation's shape condition.) -/
theorem concat_vec_apply {A B C : Nat} (hC : A + B = C)
    (h : Shape.Concatenates [⟨1, ![A]⟩, ⟨1, ![B]⟩] ⟨1, ![C]⟩ 0)
    (a : (⟨1, ![A]⟩ : Shape).Idx → α) (b : (⟨1, ![B]⟩ : Shape).Idx → α) (j : Fin C) :
    concatenate ⟨1, ![C]⟩ 0 [⟨⟨1, ![A]⟩, a⟩, ⟨⟨1, ![B]⟩, b⟩] h (ix1 j)
      = if hj : j.val < A then a (ix1 ⟨j.val, hj⟩) else b (ix1 ⟨j.val - A, by omega⟩) := by
  split
  · rename_i hj
    refine concatenate_pair_apply_left 0 a b h (ix1 j) rfl (ix1 ⟨j.val, hj⟩) fun c => ?_
    obtain rfl : c = 0 := Subsingleton.elim _ _
    rfl
  · rename_i hj
    refine concatenate_pair_apply_right 0 a b h (ix1 j) rfl rfl (ix1 ⟨j.val - A, by omega⟩)
      (fun c hc => absurd (Subsingleton.elim _ _) hc) ?_
    show j.val - A + A = j.val
    omega

end Cert.LibConcatVec

end
-- ==== Proof.HiddenFinite.lean ====
/-
  The hidden array of the reference holds real numbers.

  The reference computes h = Â (x W₁) + b₁, where Â is the adjacency with self-loops, normalised by deg^(-1/2) on
  both sides. At the ideal reading a float is an extended real, and the only way an infinity could enter is the
  reciprocal square root of a zero degree. The degree of a node is the number of edges (self-loops included) that
  end in it; the self-loop of node n is update 3200000 + n of the degree scatter, so every degree is a real ≥ 1, its
  reciprocal square root is the real (√deg)⁻¹, and from there on every stage is a finite sum or product of reals.
-/
import proofs.«156838_j27968827031806_1_alg».proof.Proof.RefRead
import proofs.«156838_j27968827031806_1_alg».proof.Proof.LibScatterAddRows
import proofs.«156838_j27968827031806_1_alg».proof.Proof.LibGatherRows
import proofs.«156838_j27968827031806_1_alg».proof.Proof.LibConcatVec

noncomputable section

open scoped BigOperators

namespace Cert.HiddenFinite

open Cert.ReferenceIdeal Cert.ReferenceIdeal.Gen Cert.ReferenceIdeal.ReadP Idealize.ShloMosaic
  Idealize.ShloMosaic.ValueIdx Idealize.SL.Sem Idealize.ShloMosaic.StableHlo

/-! ## Extended reals that are real numbers -/

/-- An extended real that is a real number (neither infinity). -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.ite (p : Prop) [Decidable p] {x y : EReal} (hx : IsReal x) (hy : IsReal y) :
    IsReal (if p then x else y) := by
  split <;> assumption

/-- A finite sum of real numbers is a real number. -/
theorem isReal_sum {ι : Type} (s : Finset ι) (f : ι → EReal) (h : ∀ i ∈ s, IsReal (f i)) :
    IsReal (∑ i ∈ s, f i) := by
  classical
  induction s using Finset.induction_on with
  | empty => rw [Finset.sum_empty]; exact isReal_zero
  | insert a s ha ih =>
    rw [Finset.sum_insert ha]
    exact (h a (Finset.mem_insert_self a s)).add (ih fun i hi => h i (Finset.mem_insert_of_mem hi))

/-- The inclusion of the reals commutes with finite sums. -/
theorem coe_sum {ι : Type} (s : Finset ι) (f : ι → ℝ) :
    ((∑ i ∈ s, f i : ℝ) : EReal) = ∑ i ∈ s, (f i : EReal) := by
  classical
  induction s using Finset.induction_on with
  | empty => rw [Finset.sum_empty, Finset.sum_empty, EReal.coe_zero]
  | insert a s ha ih => rw [Finset.sum_insert ha, Finset.sum_insert ha, EReal.coe_add, ih]

/-- A sum of zeros and ones with at least one one is a real number ≥ 1. -/
theorem count_real_pos {K : Nat} (p : Fin K → Prop) [DecidablePred p] (e₀ : Fin K) (h₀ : p e₀) :
    ∃ r : ℝ, 1 ≤ r ∧ (0 : EReal) + ∑ e : Fin K, (if p e then ((1 : ℝ) : EReal) else 0) = (r : EReal) := by
  refine ⟨∑ e : Fin K, if p e then (1 : ℝ) else 0, ?_, ?_⟩
  · have h := Finset.single_le_sum (f := fun e : Fin K => if p e then (1 : ℝ) else 0)
      (fun e _ => by split <;> norm_num) (Finset.mem_univ e₀)
    simpa [h₀] using h
  · rw [zero_add, coe_sum]
    refine Finset.sum_congr rfl fun e _ => ?_
    split
    · rfl
    · exact EReal.coe_zero.symm

/-- The reciprocal square root of a positive real is a real. -/
theorem isReal_rsqrt {r : ℝ} (hr : 0 < r) : IsReal (Ideal.rsqrt (r : EReal)) := by
  rw [Ideal.rsqrt_coe, if_neg (not_lt.mpr hr.le), if_neg hr.ne']
  exact ⟨_, rfl⟩

/-! ## The two literals -/

/-- The pattern of 1.0 denotes the real one. -/
theorem ofBits_one : Ideal.ofBits .f32 0x3F800000#32 = ((1 : ℝ) : EReal) := by
  simp [Ideal.ofBits, Ideal.ieee, -EReal.coe_mul]; norm_num

/-- A word below 100000 read as a signed integer is itself. -/
theorem toInt_ofNat_small (m : Nat) (h : m < 100000) : (BitVec.ofNat 32 m).toInt = (m : Int) := by
  have hm : (BitVec.ofNat 32 m).toNat = m := by
    rw [BitVec.toNat_ofNat]; exact Nat.mod_eq_of_lt (by omega)
  rw [BitVec.toInt_eq_toNat_of_lt (by rw [hm]; omega), hm]

/-! ## Indices of a flat array and of a matrix -/

theorem forall_idx1 {n : Nat} {P : (⟨1, ![n]⟩ : Shape).Idx → Prop} (h : ∀ e : Fin n, P (ix1 e))
    (i : (⟨1, ![n]⟩ : Shape).Idx) : P i := by
  rw [eq_ix1 i]; exact h _

theorem forall_idx2 {n0 n1 : Nat} {P : (⟨2, ![n0, n1]⟩ : Shape).Idx → Prop}
    (h : ∀ (a : Fin n0) (b : Fin n1), P (ix2 a b)) (i : (⟨2, ![n0, n1]⟩ : Shape).Idx) : P i := by
  rw [eq_ix2 i]; exact h _ _

/-! ## The program's scatter and gather records are the flat and the row records -/

theorem degScatter_dims : scatter_S100000_S3300000x1_S3300000_n_0_0_1
    = LibScatterAddRows.vecDims 100000 3300000 scatter_S100000_S3300000x1_S3300000_n_0_0_1_wf := rfl

theorem dinvGather_dims : gather_S100000_S3300000x1_S3300000_n_0_n_n_0_1_1
    = LibGatherRows.vecDims 100000 3300000 gather_S100000_S3300000x1_S3300000_n_0_n_n_0_1_1_wf := rfl

theorem rowGather_dims : gather_S100000x16_S3300000x1_S3300000x16_1_0_n_n_0_1_116
    = LibGatherRows.rowDims 100000 16 3300000 gather_S100000x16_S3300000x1_S3300000x16_1_0_n_n_0_1_116_wf := rfl

theorem rowScatter_dims : scatter_S100000x16_S3300000x1_S3300000x16_1_0_0_1
    = LibScatterAddRows.rowDims 100000 16 3300000 scatter_S100000x16_S3300000x1_S3300000x16_1_0_0_1_wf := rfl

/-! ## The degree is a real number ≥ 1 -/

variable (x1 : (⟨S2x3200000, .i32⟩ : BufTy).Contents (Elt Ideal))

/-- The updates of the degree scatter are all one. -/
theorem v7_eq (i : S3300000.Idx) : val_main_v7 (F := Ideal) i = ((1 : ℝ) : EReal) := by
  rw [val_main_v7_apply, val_main_cst_apply, Ideal.ofBits_def, ofBits_one]

/-- The degree scatter starts from zeros. -/
theorem v8_eq (i : S100000.Idx) : val_main_v8 (F := Ideal) i = 0 := by
  rw [val_main_v8_apply, val_main_cst_0_apply, Ideal.ofBits_def, Ideal.ofBits_zero_f32]

/-- The degree of node n: zero plus one for every edge end that, read signed, is n. -/
theorem v10_apply (n : Fin 100000) :
    val_main_v10 (F := Ideal) x1 (ix1 n)
      = 0 + ∑ e : Fin 3300000,
          if (val_main_v9 (F := Ideal) x1 (ix2 e 0)).toInt = (n.val : Int) then ((1 : ℝ) : EReal) else 0 := by
  unfold val_main_v10
  rw [degScatter_dims]
  generalize val_main_v9 (F := Ideal) x1 = idx
  rw [LibScatterAddRows.scatterAdd_vec_apply, v8_eq]
  exact congrArg (fun s : EReal => 0 + s) (Finset.sum_congr rfl fun e _ => by rw [v7_eq])

/-- The self-loop of node n, edge end 3200000 + n, ends in n. -/
theorem v9_selfloop (n : Fin 100000) :
    (val_main_v9 (F := Ideal) x1 (ix2 (⟨3200000 + n.val, by omega⟩ : Fin 3300000) 0)).toInt = (n.val : Int) := by
  rw [val_main_v9_apply]
  have hidx : idx_main_v9 (ix2 (⟨3200000 + n.val, by omega⟩ : Fin 3300000) (0 : Fin 1))
      = ix1 (⟨3200000 + n.val, by omega⟩ : Fin 3300000) := by
    funext a; match a with | ⟨0, _⟩ => rfl
  rw [hidx]
  have hcat := LibConcatVec.concat_vec_apply (A := 3200000) (B := 100000) (C := 3300000) rfl
    concatenates_S3200000_S100000_S3300000_d0 (val_main_v5 (F := Ideal) x1) (val_main_v0 (F := Ideal))
    ⟨3200000 + n.val, by omega⟩
  rw [dif_neg (by show ¬(3200000 + n.val < 3200000); omega)] at hcat
  unfold val_main_v6
  rw [hcat, val_main_v0_apply]
  show (BitVec.ofNat 32 (3200000 + n.val - 3200000)).toInt = _
  rw [show 3200000 + n.val - 3200000 = n.val by omega]
  exact toInt_ofNat_small _ n.isLt

theorem deg_real_pos (n : Fin 100000) :
    ∃ r : ℝ, 1 ≤ r ∧ val_main_v10 (F := Ideal) x1 (ix1 n) = (r : EReal) := by
  rw [v10_apply]
  exact count_real_pos (K := 3300000)
    (fun e => (val_main_v9 (F := Ideal) x1 (ix2 e 0)).toInt = (n.val : Int)) ⟨3200000 + n.val, by omega⟩
    (v9_selfloop x1 n)

/-- The reciprocal square root of the degree is a real number. -/
theorem v11_real (n : Fin 100000) : IsReal (val_main_v11 (F := Ideal) x1 (ix1 n)) := by
  rw [val_main_v11_apply, Ideal.hostUnary_rsqrt_def]
  obtain ⟨r, hr, h⟩ := deg_real_pos x1 n
  rw [h]
  exact isReal_rsqrt (by linarith)

/-! ## The edge weights are real numbers -/

/-- The reciprocal square root of the degree gathered at the edge sources. -/
theorem v18_real (e : Fin 3300000) : IsReal (val_main_v18 (F := Ideal) x1 (ix1 e)) := by
  unfold val_main_v18
  rw [dinvGather_dims]
  have hx := v11_real x1
  generalize val_main_v17 (F := Ideal) x1 = idx
  generalize val_main_v11 (F := Ideal) x1 = d at hx ⊢
  rw [LibGatherRows.gather_vec_apply (by norm_num)]
  exact hx _

/-- The reciprocal square root of the degree gathered at the edge ends. -/
theorem v25_real (e : Fin 3300000) : IsReal (val_main_v25 (F := Ideal) x1 (ix1 e)) := by
  unfold val_main_v25
  rw [dinvGather_dims]
  have hx := v11_real x1
  generalize val_main_v24 (F := Ideal) x1 = idx
  generalize val_main_v11 (F := Ideal) x1 = d at hx ⊢
  rw [LibGatherRows.gather_vec_apply (by norm_num)]
  exact hx _

/-- The weight of an edge, the product of the two. -/
theorem v26_real (e : Fin 3300000) : IsReal (val_main_v26 (F := Ideal) x1 (ix1 e)) := by
  rw [val_main_v26_apply, Ideal.mulf_def]
  exact (v18_real x1 e).mul (v25_real x1 e)

/-- The weight of an edge, repeated along the sixteen columns. -/
theorem v36_real (i : S3300000x16.Idx) : IsReal (val_main_v36 (F := Ideal) x1 i) := by
  rw [val_main_v36_apply, val_main_v28_apply]
  exact forall_idx1 (P := fun j => IsReal (val_main_v26 (F := Ideal) x1 j)) (v26_real x1) _

/-! ## The projected features, the messages, their sums and the hidden array -/

variable (x0 : (⟨S100000x512, .f32⟩ : BufTy).Contents (Elt Ideal))
  (x2 : (⟨S512x16, .f32⟩ : BufTy).Contents (Elt Ideal)) (x3 : (⟨S16, .f32⟩ : BufTy).Contents (Elt Ideal))

/-- An entry of the projected features is a sum of 512 products of reals. -/
theorem v27_real (h0 : ∀ i, IsReal (x0 i)) (h2 : ∀ i, IsReal (x2 i)) (i : S100000x16.Idx) :
    IsReal (val_main_v27 (F := Ideal) x0 x2 i) := by
  rw [val_main_v27_apply]
  exact isReal_sum _ _ fun k _ => (h0 _).mul (h2 _)

/-- The rows of the projected features gathered at the edge sources. -/
theorem v35_real (h0 : ∀ i, IsReal (x0 i)) (h2 : ∀ i, IsReal (x2 i)) (e : Fin 3300000) (k : Fin 16) :
    IsReal (val_main_v35 (F := Ideal) x0 x1 x2 (ix2 e k)) := by
  unfold val_main_v35
  rw [rowGather_dims]
  have hx := v27_real x0 x2 h0 h2
  generalize val_main_v34 (F := Ideal) x1 = idx
  generalize val_main_v27 (F := Ideal) x0 x2 = y at hx ⊢
  rw [LibGatherRows.gather_rows_apply (by norm_num)]
  exact hx _

/-- A message: the edge weight times the source's projected row. -/
theorem v37_real (h0 : ∀ i, IsReal (x0 i)) (h2 : ∀ i, IsReal (x2 i)) (e : Fin 3300000) (k : Fin 16) :
    IsReal (val_main_v37 (F := Ideal) x0 x1 x2 (ix2 e k)) := by
  rw [val_main_v37_apply, Ideal.mulf_def]
  exact (v36_real x1 _).mul (v35_real x1 x0 x2 h0 h2 e k)

/-- The message scatter starts from zeros. -/
theorem v38_eq (i : S100000x16.Idx) : val_main_v38 (F := Ideal) i = 0 := by
  rw [val_main_v38_apply, val_main_cst_6_apply, Ideal.ofBits_def, Ideal.ofBits_zero_f32]

/-- The sum of the messages that end in a node. -/
theorem v40_real (h0 : ∀ i, IsReal (x0 i)) (h2 : ∀ i, IsReal (x2 i)) (n : Fin 100000) (k : Fin 16) :
    IsReal (val_main_v40 (F := Ideal) x0 x1 x2 (ix2 n k)) := by
  unfold val_main_v40
  rw [rowScatter_dims]
  have hu := v37_real x1 x0 x2 h0 h2
  generalize val_main_v39 (F := Ideal) x1 = idx
  generalize val_main_v37 (F := Ideal) x0 x1 x2 = u at hu ⊢
  rw [LibScatterAddRows.scatterAdd_rows_apply, v38_eq]
  exact isReal_zero.add (isReal_sum _ _ fun e _ => IsReal.ite _ (hu e k) isReal_zero)

/-- The bias repeated along the rows. -/
theorem v42_real (h3 : ∀ i, IsReal (x3 i)) (i : S100000x16.Idx) : IsReal (val_main_v42 (F := Ideal) x3 i) := by
  rw [val_main_v42_apply, val_main_v41_apply]
  exact h3 _

/-- THE HIDDEN ARRAY IS FINITE: with real features, weights and bias, every entry of the reference's hidden array
    (the summed messages plus the bias) is a real number. -/
theorem hidden_finite
    (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 : (⟨S16, .f32⟩ : BufTy).Contents (Elt Ideal))
    (h0 : ∀ i, ∃ r : ℝ, x0 i = (r : EReal)) (h2 : ∀ i, ∃ r : ℝ, x2 i = (r : EReal)) (h3 : ∀ i, ∃ r : ℝ, x3 i = (r : EReal)) :
    ∀ i, ∃ r : ℝ, Cert.ReferenceIdeal.ReadP.val_main_v43 (F := Ideal) x0 x1 x2 x3 i = (r : EReal) := by
  intro i
  show IsReal _
  rw [val_main_v43_apply, Ideal.addf_def]
  exact (forall_idx2 (P := fun j => IsReal (val_main_v40 (F := Ideal) x0 x1 x2 j)) (v40_real x1 x0 x2 h0 h2) i).add
    (v42_real x3 h3 i)

end Cert.HiddenFinite

end
-- ==== Proof.BnBridge.lean ====
/-
  The batch-normalisation bridge. The second projection can be written two ways: with the per-column scale
  `γ · s` and shift `β − μ · γ · s` folded beforehand, `max (h · (γ · s) + (β − μ · γ · s)) 0` multiplied into the
  second weight matrix, or as the reference writes it, `max (((h − μ) · s) · γ + β) 0` multiplied into the same
  matrix, where `μ` is the column mean of the hidden array `h` over its `100000` rows and
  `s = 1 / √(variance + ε)` the column's reciprocal standard deviation. Over the extended reals the two affine
  forms agree when every factor is finite (distributivity fails at the infinities), so the statement asks the
  hidden array and the two parameter vectors to be finite, and proves the rest: the mean of finitely many reals
  is a real, the variance is a real `≥ 0`, the offset `ε` is a positive real, and the reciprocal square root
  of a positive real is a real. The weight matrix needs no hypothesis: both sides multiply the same clamped value
  into it. The reference's stages are read through the generated `val_main_vN_apply` lemmas.
-/
import proofs.«156838_j27968827031806_1_alg».proof.Proof.RefRead
import proofs.«156838_j27968827031806_1_alg».proof.Proof.Spec

noncomputable section

namespace Cert.BnBridge

open Cert.ReferenceIdeal Cert.ReferenceIdeal.Gen Cert.ReferenceIdeal.ReadP Idealize.ShloMosaic Idealize.ShloMosaic.TcCoe Idealize.SL.Sem Idealize.ShloMosaic.StableHlo Idealize.ShloMosaic.ValueIdx

/-- A finite sum of coerced reals is the coerced sum. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- The row count `100000.0` denotes the real `100000`. -/
theorem ofBits_100000 : Ideal.ofBits .f32 0x47C35000#32 = ((100000 : ℝ) : EReal) := by
  simp [Ideal.ofBits, Ideal.ieee, -EReal.coe_mul]; norm_num

/-- The variance offset `9.99999974e-6` denotes the positive dyadic `10995116 · 2⁻⁴⁰`. -/
theorem ofBits_eps : Ideal.ofBits .f32 0x3727C5AC#32 = ((10995116 * (2 : ℝ) ^ (-40 : Int) : ℝ) : EReal) := by
  simp [Ideal.ofBits, Ideal.ieee, -EReal.coe_mul]

section Stats

variable (x0 : (⟨S100000x512, .f32⟩ : BufTy).Contents (Elt Ideal)) (x1 : (⟨S2x3200000, .i32⟩ : BufTy).Contents (Elt Ideal))
  (x2 : (⟨S512x16, .f32⟩ : BufTy).Contents (Elt Ideal)) (x3 : (⟨S16, .f32⟩ : BufTy).Contents (Elt Ideal))

/-- The column mean of a finite hidden array is finite: a finite sum of reals divided by `100000`. -/
theorem mean_fin (hH : ∀ i, ∃ r : ℝ, val_main_v43 (F := Ideal) x0 x1 x2 x3 i = (r : EReal)) (j : S16.Idx) :
    ∃ m : ℝ, val_main_v46 (F := Ideal) x0 x1 x2 x3 j = (m : EReal) := by
  choose h hh using hH
  refine ⟨(∑ n : Fin 100000, h (idx_main_v44 j n)) * (1 / 100000 : ℝ), ?_⟩
  have hs : (∑ n : Fin 100000, val_main_v43 (F := Ideal) x0 x1 x2 x3 (idx_main_v44 j n))
      = ∑ n : Fin 100000, ((h (idx_main_v44 j n) : ℝ) : EReal) := Finset.sum_congr rfl fun n _ => hh _
  rw [val_main_v46_apply, val_main_v44_apply, val_main_v45_apply, val_main_cst_8_apply, val_main_cst_7_apply,
    Ideal.hostDivf_def, Ideal.ofBits_def, Ideal.ofBits_def, Ideal.ofBits_zero_f32, ofBits_100000, zero_add,
    Ideal.div_coe (by norm_num : (100000 : ℝ) ≠ 0), hs, coe_sum, ← EReal.coe_mul]

/-- The reciprocal standard deviation of a finite hidden array is finite: the variance is a real `≥ 0`
    (a finite sum of squares of reals divided by `100000`), the offset is a positive real, and the
    reciprocal square root of a positive real is a real. -/
theorem istd_fin (hH : ∀ i, ∃ r : ℝ, val_main_v43 (F := Ideal) x0 x1 x2 x3 i = (r : EReal)) (j : S16.Idx) :
    ∃ s : ℝ, val_main_v59 (F := Ideal) x0 x1 x2 x3 j = (s : EReal) := by
  choose h hh using hH
  choose m hm using mean_fin x0 x1 x2 x3 (fun i => ⟨h i, hh i⟩)
  have h50 : ∀ i, val_main_v50 (F := Ideal) x0 x1 x2 x3 i
      = (((h i - m (idx_main_v47 (idx_main_v48 i))) * (h i - m (idx_main_v47 (idx_main_v48 i))) : ℝ) : EReal) := by
    intro i
    rw [val_main_v50_apply, val_main_v49_apply, val_main_v48_apply, val_main_v47_apply, hh, hm,
      Ideal.mulf_def, Ideal.subf_def, ← EReal.coe_sub, ← EReal.coe_mul]
  have hs : (∑ n : Fin 100000, val_main_v50 (F := Ideal) x0 x1 x2 x3 (idx_main_v51 j n))
      = ∑ n : Fin 100000, (((h (idx_main_v51 j n) - m (idx_main_v47 (idx_main_v48 (idx_main_v51 j n))))
          * (h (idx_main_v51 j n) - m (idx_main_v47 (idx_main_v48 (idx_main_v51 j n)))) : ℝ) : EReal) :=
    Finset.sum_congr rfl fun n _ => h50 _
  have h58 : val_main_v58 (F := Ideal) x0 x1 x2 x3 j
      = (((∑ n : Fin 100000, (h (idx_main_v51 j n) - m (idx_main_v47 (idx_main_v48 (idx_main_v51 j n))))
          * (h (idx_main_v51 j n) - m (idx_main_v47 (idx_main_v48 (idx_main_v51 j n))))) * (1 / 100000 : ℝ)
          + 10995116 * (2 : ℝ) ^ (-40 : Int) : ℝ) : EReal) := by
    rw [val_main_v58_apply, val_main_v53_apply, val_main_v51_apply, val_main_v52_apply, val_main_v57_apply,
      val_main_cst_9_apply, val_main_cst_10_apply, val_main_cst_11_apply,
      Ideal.addf_def, Ideal.hostDivf_def, Ideal.ofBits_def, Ideal.ofBits_def, Ideal.ofBits_def, Ideal.ofBits_zero_f32,
      ofBits_100000, ofBits_eps, zero_add, Ideal.div_coe (by norm_num : (100000 : ℝ) ≠ 0), hs, coe_sum,
      ← EReal.coe_mul, ← EReal.coe_add]
  have hpos : (0 : ℝ) < (∑ n : Fin 100000, (h (idx_main_v51 j n) - m (idx_main_v47 (idx_main_v48 (idx_main_v51 j n))))
          * (h (idx_main_v51 j n) - m (idx_main_v47 (idx_main_v48 (idx_main_v51 j n))))) * (1 / 100000 : ℝ)
          + 10995116 * (2 : ℝ) ^ (-40 : Int) := by
    have h1 : (0 : ℝ) ≤ ∑ n : Fin 100000, (h (idx_main_v51 j n) - m (idx_main_v47 (idx_main_v48 (idx_main_v51 j n))))
          * (h (idx_main_v51 j n) - m (idx_main_v47 (idx_main_v48 (idx_main_v51 j n)))) :=
      Finset.sum_nonneg fun n _ => mul_self_nonneg _
    have h2 : (0 : ℝ) < 10995116 * (2 : ℝ) ^ (-40 : Int) := by positivity
    have h3 : (0 : ℝ) ≤ (1 / 100000 : ℝ) := by norm_num
    exact add_pos_of_nonneg_of_pos (mul_nonneg h1 h3) h2
  obtain ⟨p, hp, h58'⟩ : ∃ p : ℝ, 0 < p ∧ val_main_v58 (F := Ideal) x0 x1 x2 x3 j = (p : EReal) := ⟨_, hpos, h58⟩
  refine ⟨(Real.sqrt p)⁻¹, ?_⟩
  rw [val_main_v59_apply, Ideal.hostUnary_rsqrt_def, h58', Ideal.rsqrt_coe, if_neg (not_lt.mpr hp.le), if_neg hp.ne']

/-- One element of the reference's clamped, normalised hidden array, read from the hidden array, the column
    mean, the column reciprocal standard deviation and the two parameter vectors. -/
theorem relu_point (x4 x5 : (⟨S16, .f32⟩ : BufTy).Contents (Elt Ideal)) (n : Fin 100000) (k : Fin 16) :
    val_main_v69 (F := Ideal) x0 x1 x2 x3 x4 x5 (ix2 n k)
      = max (((val_main_v43 (F := Ideal) x0 x1 x2 x3 (ix2 n k) - val_main_v46 (F := Ideal) x0 x1 x2 x3 (ix1 k))
              * val_main_v59 (F := Ideal) x0 x1 x2 x3 (ix1 k)) * x4 (ix1 k) + x5 (ix1 k)) 0 := by
  have e1 : idx_main_v54 (idx_main_v55 (ix2 n k)) = ix1 k := funext fun a => by match a with | ⟨0, _⟩ => rfl
  have e2 : idx_main_v60 (idx_main_v61 (ix2 n k)) = ix1 k := funext fun a => by match a with | ⟨0, _⟩ => rfl
  have e3 : idx_main_v63 (idx_main_v64 (ix2 n k)) = ix1 k := funext fun a => by match a with | ⟨0, _⟩ => rfl
  have e4 : idx_main_v66 (idx_main_v67 (ix2 n k)) = ix1 k := funext fun a => by match a with | ⟨0, _⟩ => rfl
  rw [val_main_v69_apply, val_main_call0_v0_apply, val_main_call0_cst_apply, val_main_v68_apply, val_main_v65_apply,
    val_main_v62_apply, val_main_v56_apply, val_main_v55_apply, val_main_v54_apply, val_main_v61_apply,
    val_main_v60_apply, val_main_v64_apply, val_main_v63_apply, val_main_v67_apply, val_main_v66_apply,
    e1, e2, e3, e4, Ideal.maximumf_def, Ideal.addf_def, Ideal.mulf_def, Ideal.mulf_def, Ideal.subf_def,
    Ideal.ofBits_def, Ideal.ofBits_zero_f32]

end Stats

/-- The second projection with the scale and shift folded beforehand is the reference's second projection of
    the normalised, clamped hidden array: with every factor finite the two affine forms are one real number,
    `h · (γ · s) + (β − μ · γ · s) = ((h − μ) · s) · γ + β`, and both sides multiply the same clamped value into the
    same weight. -/
theorem bn_bridge
    (x0 : (⟨S100000x512, .f32⟩ : BufTy).Contents (Elt Ideal)) (x1 : (⟨S2x3200000, .i32⟩ : BufTy).Contents (Elt Ideal))
    (x2 : (⟨S512x16, .f32⟩ : BufTy).Contents (Elt Ideal)) (x3 x4 x5 : (⟨S16, .f32⟩ : BufTy).Contents (Elt Ideal))
    (x6 : (⟨S16x2, .f32⟩ : BufTy).Contents (Elt Ideal)) (sc sh : (⟨2, ![1, 16]⟩ : Shape).Idx → EReal)
    (hH : ∀ i, ∃ r : ℝ, val_main_v43 (F := Ideal) x0 x1 x2 x3 i = (r : EReal))
    (h4 : ∀ i, ∃ r : ℝ, x4 i = (r : EReal)) (h5 : ∀ i, ∃ r : ℝ, x5 i = (r : EReal))
    (hsc : ∀ k : Fin 16, sc (ix2 (0 : Fin 1) k) = x4 (ix1 k) * val_main_v59 (F := Ideal) x0 x1 x2 x3 (ix1 k))
    (hsh : ∀ k : Fin 16, sh (ix2 (0 : Fin 1) k)
        = x5 (ix1 k) - val_main_v46 (F := Ideal) x0 x1 x2 x3 (ix1 k) * x4 (ix1 k) * val_main_v59 (F := Ideal) x0 x1 x2 x3 (ix1 k)) :
    Cert.Spec.bnMatmul (val_main_v43 (F := Ideal) x0 x1 x2 x3) sc sh x6
      = val_main_v70 (F := Ideal) x0 x1 x2 x3 x4 x5 x6 := by
  choose m hm using mean_fin x0 x1 x2 x3 hH
  choose s hs using istd_fin x0 x1 x2 x3 hH
  choose h hh using hH
  choose g hg using h4
  choose b hb using h5
  funext i
  rw [val_main_v70_apply]
  simp only [Cert.Spec.bnMatmul]
  refine Finset.sum_congr rfl fun k _ => ?_
  have el : lidx_main_v70 i k = ix2 (⟨(i 0).val, idx2_lt0 i⟩ : Fin 100000) k :=
    funext fun a => by match a with | ⟨0, _⟩ => rfl | ⟨1, _⟩ => rfl
  have er : ridx_main_v70 i k = ix2 k (⟨(i 1).val, idx2_lt1 i⟩ : Fin 2) :=
    funext fun a => by match a with | ⟨0, _⟩ => rfl | ⟨1, _⟩ => rfl
  rw [el, er, relu_point, hsc, hsh, hh, hm, hs, hg, hb]
  congr 2
  simp only [← EReal.coe_mul, ← EReal.coe_add, ← EReal.coe_sub]
  congr 1
  ring

end Cert.BnBridge

end
-- ==== Proof.LibBroadcasts.lean ====
/-
  The small broadcasts and the one reshape the graph convolution's host arithmetic uses, read at an index, for any
  sizes: a vector as a one-column matrix, a one-column matrix spread over C columns, a scalar spread over any shape, a
  vector as a one-row matrix (as a broadcast and as a reshape), a one-row matrix spread over N rows.
-/
import Idealize.ShloMosaic.Lib.Pipeline.Value
import Idealize.ShloMosaic.Lib.ValueIdx

noncomputable section

namespace Cert.LibBroadcasts

open Idealize.ShloMosaic Idealize.ShloMosaic.ValueIdx

variable {α : Type}

/-- A [K] vector broadcast to a [K, 1] column, read at (e, 0), is the vector at e. -/
theorem column_apply {K : Nat} (h : (⟨1, ![K]⟩ : Shape).BroadcastsInDim ⟨2, ![K, 1]⟩ ![0])
    (y : (⟨1, ![K]⟩ : Shape).Idx → α) (e : Fin K) (z : Fin 1) :
    broadcastInDim ⟨2, ![K, 1]⟩ ![0] h y (ix2 e z) = y (ix1 e) :=
  broadcastInDim_apply _ h y _ _ (fun a => match a with
    | ⟨0, _⟩ => by
      have := e.isLt
      show e.val = if K = 1 then 0 else e.val
      split <;> omega)

/-- A [K, 1] column broadcast over C columns, read at (e, k), is the column at (e, 0). -/
theorem spread_apply {K C : Nat} (h : (⟨2, ![K, 1]⟩ : Shape).BroadcastsInDim ⟨2, ![K, C]⟩ ![0, 1])
    (y : (⟨2, ![K, 1]⟩ : Shape).Idx → α) (e : Fin K) (k : Fin C) :
    broadcastInDim ⟨2, ![K, C]⟩ ![0, 1] h y (ix2 e k) = y (ix2 e 0) :=
  broadcastInDim_apply _ h y _ _ (fun a => match a with
    | ⟨0, _⟩ => by
      have := e.isLt
      show e.val = if K = 1 then 0 else e.val
      split <;> omega
    | ⟨1, _⟩ => by show 0 = if (1 : Nat) = 1 then 0 else k.val; rw [if_pos rfl])

/-- A scalar broadcast to any shape is the scalar everywhere. -/
theorem scalar_apply {t : Shape} (h : (⟨0, ![]⟩ : Shape).BroadcastsInDim t ![])
    (y : (⟨0, ![]⟩ : Shape).Idx → α) (j : t.Idx) :
    broadcastInDim t ![] h y j = y (fun a => a.elim0) :=
  broadcastInDim_apply _ h y _ _ (fun a => a.elim0)

/-- A [C] vector broadcast to a [1, C] row, read at (0, k), is the vector at k. -/
theorem row_apply {C : Nat} (h : (⟨1, ![C]⟩ : Shape).BroadcastsInDim ⟨2, ![1, C]⟩ ![1])
    (y : (⟨1, ![C]⟩ : Shape).Idx → α) (z : Fin 1) (k : Fin C) :
    broadcastInDim ⟨2, ![1, C]⟩ ![1] h y (ix2 z k) = y (ix1 k) :=
  broadcastInDim_apply _ h y _ _ (fun a => match a with
    | ⟨0, _⟩ => by
      have := k.isLt
      show k.val = if C = 1 then 0 else k.val
      split <;> omega)

/-- A [1, C] row broadcast over N rows, read at (i, k), is the row at (0, k). -/
theorem rows_apply {N C : Nat} (h : (⟨2, ![1, C]⟩ : Shape).BroadcastsInDim ⟨2, ![N, C]⟩ ![0, 1])
    (y : (⟨2, ![1, C]⟩ : Shape).Idx → α) (i : Fin N) (k : Fin C) :
    broadcastInDim ⟨2, ![N, C]⟩ ![0, 1] h y (ix2 i k) = y (ix2 0 k) :=
  broadcastInDim_apply _ h y _ _ (fun a => match a with
    | ⟨0, _⟩ => by show 0 = if (1 : Nat) = 1 then 0 else i.val; rw [if_pos rfl]
    | ⟨1, _⟩ => by
      have := k.isLt
      show k.val = if C = 1 then 0 else k.val
      split <;> omega)

/-- A [C] vector reshaped to a [1, C] row, read at (0, k), is the vector at k. -/
theorem row_cast_apply {C : Nat} (h : (⟨1, ![C]⟩ : Shape).ShapeCasts ⟨2, ![1, C]⟩)
    (y : (⟨1, ![C]⟩ : Shape).Idx → α) (z : Fin 1) (k : Fin C) :
    shapeCast ⟨2, ![1, C]⟩ y h (ix2 z k) = y (ix1 k) :=
  shapeCast_apply y h (ix2 z k) (ix1 k) (by
    rewrite [Shape.rowMajor_val_two, Shape.rowMajor_val_one]
    have := z.isLt
    show k.val = z.val * C + k.val
    have hz : z.val = 0 := by omega
    rw [hz]; omega)

end Cert.LibBroadcasts

end
-- ==== Proof.Bridge.lean ====
/-
  The kernel's result array is the reference's result function of the launch contents of the argument arrays.
  The fold of the kernel's program is walked segment by segment. The first host stretch leaves the edge lists and the
  edge weights at the reference's stages of the edge index array; the first grid leaves x · W1 (its blocks of 4000 rows
  are the blocks of one product); the second stretch leaves the hidden array h, and the rows γ · inv_std and
  β − mean · γ · inv_std; the second grid leaves Σ_k max (h · scale + shift) 0 · W2, which is the reference's
  max (((h − mean) · inv_std) · γ + β) 0 projected by W2 because h, γ and β are finite — h is finite since the inputs
  are and every node's degree counts its own self-loop; the last stretches are the reference's own.
-/
import proofs.«156838_j27968827031806_1_alg».proof.Proof.Gen.KernelIdeal.Frame
import proofs.«156838_j27968827031806_1_alg».proof.Proof.HostChain
import proofs.«156838_j27968827031806_1_alg».proof.Proof.Matmul1Value
import proofs.«156838_j27968827031806_1_alg».proof.Proof.BnMatmul2Value
import proofs.«156838_j27968827031806_1_alg».proof.Proof.HiddenFinite
import proofs.«156838_j27968827031806_1_alg».proof.Proof.BnBridge
import proofs.«156838_j27968827031806_1_alg».proof.Proof.LibBroadcasts

noncomputable section

namespace Cert.KernelIdeal.Bridge

open Cert.KernelIdeal Cert.KernelIdeal.Gen Idealize.ShloMosaic Idealize.ShloMosaic.TcCoe Idealize.SL.Sem Idealize.ShloMosaic.StableHlo
open Idealize.ShloMosaic.ValueIdx
open Cert.ReferenceIdeal.ReadP

variable (m : (ℓ : Loc nD τ sig) → Buf (Elt Ideal) ℓ) (ρ : Dev nD → PrngReg) (c : Dev nD)

/-- The contents of the result buffer at the last segment boundary are the reference's result stage of the argument
    arrays' launch contents, when the float arguments entering the hidden array and the batch normalisation are finite. -/
theorem result_eq
    (h0 : ∀ i, ∃ r : ℝ, m ((c.tc : Thread nD τ).loc main_arg0) i = (r : EReal))
    (h2 : ∀ i, ∃ r : ℝ, m ((c.tc : Thread nD τ).loc main_arg2) i = (r : EReal))
    (h3 : ∀ i, ∃ r : ℝ, m ((c.tc : Thread nD τ).loc main_arg3) i = (r : EReal))
    (h4 : ∀ i, ∃ r : ℝ, m ((c.tc : Thread nD τ).loc main_arg4) i = (r : EReal))
    (h5 : ∀ i, ∃ r : ℝ, m ((c.tc : Thread nD τ).loc main_arg5) i = (r : EReal)) :
    W6 (F := Ideal) m ρ c (Proc.devRef .tc main_v80)
      = val_main_v87 (F := Ideal) (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7)) := by
  generalize ha0 : (m ((c.tc : Thread nD τ).loc main_arg0) : (⟨Cert.ReferenceIdeal.S100000x512, .f32⟩ : BufTy).Contents (Elt Ideal)) = a0 at h0
  generalize ha1 : (m ((c.tc : Thread nD τ).loc main_arg1) : (⟨Cert.ReferenceIdeal.S2x3200000, .i32⟩ : BufTy).Contents (Elt Ideal)) = a1
  generalize ha2 : (m ((c.tc : Thread nD τ).loc main_arg2) : (⟨Cert.ReferenceIdeal.S512x16, .f32⟩ : BufTy).Contents (Elt Ideal)) = a2 at h2
  generalize ha3 : (m ((c.tc : Thread nD τ).loc main_arg3) : (⟨Cert.ReferenceIdeal.S16, .f32⟩ : BufTy).Contents (Elt Ideal)) = a3 at h3
  generalize ha4 : (m ((c.tc : Thread nD τ).loc main_arg4) : (⟨Cert.ReferenceIdeal.S16, .f32⟩ : BufTy).Contents (Elt Ideal)) = a4 at h4
  generalize ha5 : (m ((c.tc : Thread nD τ).loc main_arg5) : (⟨Cert.ReferenceIdeal.S16, .f32⟩ : BufTy).Contents (Elt Ideal)) = a5 at h5
  generalize ha6 : (m ((c.tc : Thread nD τ).loc main_arg6) : (⟨Cert.ReferenceIdeal.S16x2, .f32⟩ : BufTy).Contents (Elt Ideal)) = a6
  generalize ha7 : (m ((c.tc : Thread nD τ).loc main_arg7) : (⟨Cert.ReferenceIdeal.S2, .f32⟩ : BufTy).Contents (Elt Ideal)) = a7
  -- the first stretch, from the launch contents
  have w1_src : W1 m ρ c (Proc.devRef .tc main_v3) = val_main_v3 (F := Ideal) a1 :=
    (HostChain.first_src (W0 m ρ c)).trans (congrArg (val_main_v3 (F := Ideal)) ha1)
  have w1_dst : W1 m ρ c (Proc.devRef .tc main_v6) = val_main_v6 (F := Ideal) a1 :=
    (HostChain.first_dst (W0 m ρ c)).trans (congrArg (val_main_v6 (F := Ideal)) ha1)
  have w1_norm : W1 m ρ c (Proc.devRef .tc main_v26) = val_main_v26 (F := Ideal) a1 :=
    (HostChain.first_norm (W0 m ρ c)).trans (congrArg (val_main_v26 (F := Ideal)) ha1)
  have w1_a0 : W1 m ρ c (Proc.devRef .tc main_arg0) = a0 := (HostChain.first_keeps_main_arg0 (W0 m ρ c)).trans ha0
  have w1_a2 : W1 m ρ c (Proc.devRef .tc main_arg2) = a2 := (HostChain.first_keeps_main_arg2 (W0 m ρ c)).trans ha2
  have w1_a3 : W1 m ρ c (Proc.devRef .tc main_arg3) = a3 := (HostChain.first_keeps_main_arg3 (W0 m ρ c)).trans ha3
  have w1_a4 : W1 m ρ c (Proc.devRef .tc main_arg4) = a4 := (HostChain.first_keeps_main_arg4 (W0 m ρ c)).trans ha4
  have w1_a5 : W1 m ρ c (Proc.devRef .tc main_arg5) = a5 := (HostChain.first_keeps_main_arg5 (W0 m ρ c)).trans ha5
  have w1_a6 : W1 m ρ c (Proc.devRef .tc main_arg6) = a6 := (HostChain.first_keeps_main_arg6 (W0 m ρ c)).trans ha6
  have w1_a7 : W1 m ρ c (Proc.devRef .tc main_arg7) = a7 := (HostChain.first_keeps_main_arg7 (W0 m ρ c)).trans ha7
  -- the first grid: its output array is the product, every other buffer is untouched
  have w2_src : W2 m ρ c (Proc.devRef .tc main_v3) = val_main_v3 (F := Ideal) a1 := (W2_of_ne m ρ c main_v3 (by decide)).trans w1_src
  have w2_dst : W2 m ρ c (Proc.devRef .tc main_v6) = val_main_v6 (F := Ideal) a1 := (W2_of_ne m ρ c main_v6 (by decide)).trans w1_dst
  have w2_norm : W2 m ρ c (Proc.devRef .tc main_v26) = val_main_v26 (F := Ideal) a1 := (W2_of_ne m ρ c main_v26 (by decide)).trans w1_norm
  have w2_a3 : W2 m ρ c (Proc.devRef .tc main_arg3) = a3 := (W2_of_ne m ρ c main_arg3 (by decide)).trans w1_a3
  have w2_a4 : W2 m ρ c (Proc.devRef .tc main_arg4) = a4 := (W2_of_ne m ρ c main_arg4 (by decide)).trans w1_a4
  have w2_a5 : W2 m ρ c (Proc.devRef .tc main_arg5) = a5 := (W2_of_ne m ρ c main_arg5 (by decide)).trans w1_a5
  have w2_a6 : W2 m ρ c (Proc.devRef .tc main_arg6) = a6 := (W2_of_ne m ρ c main_arg6 (by decide)).trans w1_a6
  have w2_a7 : W2 m ρ c (Proc.devRef .tc main_arg7) = a7 := (W2_of_ne m ρ c main_arg7 (by decide)).trans w1_a7
  have w2_hw : W2 m ρ c (Proc.devRef .tc main_v27) = val_main_v27 (F := Ideal) a0 a2 :=
    (W2_arr m ρ c 2).trans ((Cert.KernelIdeal.RegionValue.matmul1_array (V1 m ρ) c).trans
      (congrArg₂ (val_main_v27 (F := Ideal)) w1_a0 w1_a2))
  -- the second stretch
  have w3_h : W3 m ρ c (Proc.devRef .tc main_v43) = val_main_v43 (F := Ideal) a0 a1 a2 a3 :=
    HostChain.second_hidden (W2 m ρ c) a0 a1 a2 a3 w2_src w2_dst w2_norm w2_hw w2_a3
  have w3_scale := HostChain.second_scale (W2 m ρ c) a0 a1 a2 a3 a4 w2_src w2_dst w2_norm w2_hw w2_a3 w2_a4
  have w3_shift := HostChain.second_shift (W2 m ρ c) a0 a1 a2 a3 a4 a5 w2_src w2_dst w2_norm w2_hw w2_a3 w2_a4 w2_a5
  have w3_src : W3 m ρ c (Proc.devRef .tc main_v3) = val_main_v3 (F := Ideal) a1 := (HostChain.second_keeps_main_v3 (W2 m ρ c)).trans w2_src
  have w3_dst : W3 m ρ c (Proc.devRef .tc main_v6) = val_main_v6 (F := Ideal) a1 := (HostChain.second_keeps_main_v6 (W2 m ρ c)).trans w2_dst
  have w3_norm : W3 m ρ c (Proc.devRef .tc main_v26) = val_main_v26 (F := Ideal) a1 := (HostChain.second_keeps_main_v26 (W2 m ρ c)).trans w2_norm
  have w3_a6 : W3 m ρ c (Proc.devRef .tc main_arg6) = a6 := (HostChain.second_keeps_main_arg6 (W2 m ρ c)).trans w2_a6
  have w3_a7 : W3 m ρ c (Proc.devRef .tc main_arg7) = a7 := (HostChain.second_keeps_main_arg7 (W2 m ρ c)).trans w2_a7
  -- the second grid: its output array is the reference's second projection
  have hH := Cert.HiddenFinite.hidden_finite a0 a1 a2 a3 h0 h2 h3
  have w4_hw : W4 m ρ c (Proc.devRef .tc main_v63) = val_main_v70 (F := Ideal) a0 a1 a2 a3 a4 a5 a6 :=
    (W4_arr m ρ c 4).trans ((Cert.KernelIdeal.RegionValue.bn_matmul2_array (V3 m ρ) c).trans
      ((congrArg₂ (fun h w => Cert.Spec.bnMatmul h (V3 m ρ c main_v58) (V3 m ρ c main_v62) w) w3_h w3_a6).trans
        (Cert.BnBridge.bn_bridge a0 a1 a2 a3 a4 a5 a6 (V3 m ρ c main_v58) (V3 m ρ c main_v62) hH h4 h5
          (fun k => (congrFun w3_scale (ix2 (0 : Fin 1) k)).trans (Cert.LibBroadcasts.row_cast_apply _ _ (0 : Fin 1) k))
          (fun k => (congrFun w3_shift (ix2 (0 : Fin 1) k)).trans (Cert.LibBroadcasts.row_cast_apply _ _ (0 : Fin 1) k)))))
  have w4_src : W4 m ρ c (Proc.devRef .tc main_v3) = val_main_v3 (F := Ideal) a1 := (W4_of_ne m ρ c main_v3 (by decide)).trans w3_src
  have w4_dst : W4 m ρ c (Proc.devRef .tc main_v6) = val_main_v6 (F := Ideal) a1 := (W4_of_ne m ρ c main_v6 (by decide)).trans w3_dst
  have w4_norm : W4 m ρ c (Proc.devRef .tc main_v26) = val_main_v26 (F := Ideal) a1 := (W4_of_ne m ρ c main_v26 (by decide)).trans w3_norm
  have w4_a7 : W4 m ρ c (Proc.devRef .tc main_arg7) = a7 := (W4_of_ne m ρ c main_arg7 (by decide)).trans w3_a7
  -- the last two stretches
  have w5_logits : W5 m ρ c (Proc.devRef .tc main_v79) = val_main_v86 (F := Ideal) a0 a1 a2 a3 a4 a5 a6 a7 :=
    HostChain.last_logits (W4 m ρ c) a0 a1 a2 a3 a4 a5 a6 a7 w4_src w4_dst w4_norm w4_hw w4_a7
  exact HostChain.last_softmax (W5 m ρ c) a0 a1 a2 a3 a4 a5 a6 a7 w5_logits

end Cert.KernelIdeal.Bridge

end
-- ==== Proof.PreFinite.lean ====
/-
  The precondition read back: every float argument array holds real numbers.
  The precondition's function takes, for each float argument a, the conjunction over all entries of |a i| < +∞ (an
  `and`-reduction of the comparison's bits from 1) and joins the seven answers by `and`; that the result is 1 says each
  reduction is 1, hence each comparison bit, and max x (−x) < ⊤ on the extended reals leaves x neither ⊤ nor ⊥.
-/
import proofs.«156838_j27968827031806_1_alg».proof.Pre_finite_inputs
import proofs.«156838_j27968827031806_1_alg».proof.Proof.Gen.Pre_finite_inputs
import proofs.«156838_j27968827031806_1_alg».proof.Proof.LibBroadcasts
import Idealize.ShloMosaic.PureOps.Ideal
import Idealize.ShloMosaic.PureOps.Ideal.Laws
import Idealize.ShloMosaic.Lib.ReduceAll
import Idealize.ShloMosaic.Lib.ValueIdx

noncomputable section

namespace Cert.PreFinite

open Idealize.ShloMosaic Idealize.ShloMosaic.ValueIdx Cert.Pre_finite_inputs

instance : Subsingleton S_.Idx := ⟨fun a b => funext fun d => d.elim0⟩

/-- An extended real whose absolute value is below +∞ is a real number. -/
theorem real_of_abs_lt_inf (x : EReal)
    (h : Ideal.cmp .olt (max x (-x)) (Ideal.ofBits .f32 0x7F800000#32) = 1#1) : ∃ r : ℝ, x = (r : EReal) := by
  have htop : Ideal.ofBits .f32 0x7F800000#32 = (⊤ : EReal) := by simp [Ideal.ofBits, Ideal.ieee]
  rw [htop] at h
  induction x using EReal.rec with
  | bot => simp [Ideal.cmp] at h
  | coe r => exact ⟨r, rfl⟩
  | top => simp [Ideal.cmp] at h

/-- One argument's conjunct: if the `and` over all entries of `|a i| < +∞` is 1, every entry is a real number. -/
theorem all_real {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi (cmpf .olt (Host.absf a) (broadcastInDim s ![] hb (constant (F := Ideal) S_ .f32 0x7F800000#32)))
          (constantI S_ 1 1#1) hr hu ix0 = 1#1) :
    ∀ i, ∃ r : ℝ, a i = (r : EReal) := fun i => by
  have hi := Host.reduce_andi_all _ _ hr hu ix0 e i
  rw [cmpf_apply, Cert.LibBroadcasts.scalar_apply, constant_apply] at hi
  exact real_of_abs_lt_inf (a i) hi

/-- The precondition gives every float argument real entries. -/
theorem real_of_pre [Cert.Pre_finite_inputs.Facts] (a0 : FVec Ideal S100000x512 .f32) (a1 : IVec S2x3200000 32) (a2 : FVec Ideal S512x16 .f32)
    (a3 a4 a5 : FVec Ideal S16 .f32) (a6 : FVec Ideal S16x2 .f32) (a7 : FVec Ideal S2 .f32)
    (h : Cert.Pre_finite_inputs.fn (F := Ideal) a0 a1 a2 a3 a4 a5 a6 a7 = fun _ => 1#1) :
    (∀ i, ∃ r : ℝ, a0 i = (r : EReal)) ∧ (∀ i, ∃ r : ℝ, a2 i = (r : EReal)) ∧ (∀ i, ∃ r : ℝ, a3 i = (r : EReal))
      ∧ (∀ i, ∃ r : ℝ, a4 i = (r : EReal)) ∧ (∀ i, ∃ r : ℝ, a5 i = (r : EReal)) ∧ (∀ i, ∃ r : ℝ, a6 i = (r : EReal))
      ∧ (∀ i, ∃ r : ℝ, a7 i = (r : EReal)) := by
  have e := congrFun h ix0
  dsimp only [fn, fn_part1, andi] at e
  obtain ⟨e, e7⟩ := IntOp.andi_eq_one.1 e
  obtain ⟨e, e6⟩ := IntOp.andi_eq_one.1 e
  obtain ⟨e, e5⟩ := IntOp.andi_eq_one.1 e
  obtain ⟨e, e4⟩ := IntOp.andi_eq_one.1 e
  obtain ⟨e, e3⟩ := IntOp.andi_eq_one.1 e
  obtain ⟨e0, e2⟩ := IntOp.andi_eq_one.1 e
  exact ⟨all_real a0 _ _ _ e0, all_real a2 _ _ _ e2, all_real a3 _ _ _ e3, all_real a4 _ _ _ e4, all_real a5 _ _ _ e5,
    all_real a6 _ _ _ e6, all_real a7 _ _ _ e7⟩

end Cert.PreFinite

end
-- ==== Proof.lean ====
/-
  The certificate: the kernel's program and the reference's, both read over the extended reals, end with the same
  result array when the float inputs are finite.

  The kernel's program computes a two-layer graph convolution whose two dense projections are tiled kernels: x · W1 in
  blocks of 4000 rows, and relu (h · scale + shift) · W2 in blocks of 4000 rows with scale = γ · inv_std and
  shift = β − mean · γ · inv_std precomputed on the host; gathers and scatter-adds over the edge list around them are the
  reference's own operations. The reference computes relu (((h − mean) · inv_std) · γ + β) · W2 directly.
    * the frames of the two kernel programs are the generated frame certificates; the reference's is its run;
    * nothing was rewritten by the idealization, so there is nothing to preserve;
    * the algebraic claim: the kernel's result buffer ends at the fold of its host stretches and grids
      (Proof/KernelRun.lean), that fold is the reference's result stage of the launch contents (Proof/Bridge.lean: the
      blocks of each grid are the blocks of one whole-array product, and the two affine forms of the batch
      normalisation agree because the hidden array, γ and β are finite), and the reference's run ends at the same
      stage of the contents it was launched with, which agree with the kernel's.
-/
import proofs.«156838_j27968827031806_1_alg».proof.Defs
import proofs.«156838_j27968827031806_1_alg».proof.Proof.Gen.Kernel
import proofs.«156838_j27968827031806_1_alg».proof.Proof.Gen.Kernel.Skeleton
import proofs.«156838_j27968827031806_1_alg».proof.Proof.Gen.Kernel.Launch
import proofs.«156838_j27968827031806_1_alg».proof.Proof.Gen.Kernel.Points
import proofs.«156838_j27968827031806_1_alg».proof.Proof.Gen.Kernel.Frame
import proofs.«156838_j27968827031806_1_alg».proof.Proof.Gen.KernelIdeal
import proofs.«156838_j27968827031806_1_alg».proof.Proof.Gen.KernelIdeal.Skeleton
import proofs.«156838_j27968827031806_1_alg».proof.Proof.Gen.KernelIdeal.Launch
import proofs.«156838_j27968827031806_1_alg».proof.Proof.Gen.KernelIdeal.Points
import proofs.«156838_j27968827031806_1_alg».proof.Proof.Gen.KernelIdeal.Frame
import proofs.«156838_j27968827031806_1_alg».proof.Proof.Gen.ReferenceIdeal
import proofs.«156838_j27968827031806_1_alg».proof.Proof.Gen.Pre_finite_inputs
import proofs.«156838_j27968827031806_1_alg».proof.Proof.KernelRun
import proofs.«156838_j27968827031806_1_alg».proof.Proof.Bridge
import proofs.«156838_j27968827031806_1_alg».proof.Proof.PreFinite
import proofs.«156838_j27968827031806_1_alg».proof.Proof.RefRun
import proofs.«156838_j27968827031806_1_alg».proof.Proof.RefReadEq
import Idealize.ShloMosaic.Adequacy
import Idealize.ShloMosaic.Init

noncomputable section

namespace Cert.Proof

open Idealize.ShloMosaic Idealize.SL.Sem

/-- The word-level kernel program runs and leaves its arguments as launched. -/
theorem frame_kernel : Cert.frame_Kernel := fun m ρ _ => Cert.Kernel.Gen.frame m ρ

/-- So does the kernel program read over the extended reals. -/
theorem frame_kernel_ideal : Cert.frame_KernelIdeal := fun m ρ _ => Cert.KernelIdeal.Gen.frame m ρ

/-- The reference is a straight line of host operations: its run, with the result dropped. -/
theorem frame_reference_ideal : Cert.frame_ReferenceIdeal := fun m ρ _ =>
  (θ_run Cert.ReferenceIdeal.defs _ _).mono (fun _ h c => (h c).2) (Cert.ReferenceIdeal.ValueP.run (F := Ideal) m ρ)

/-- The idealization rewrote no operation. -/
theorem preserves : Cert.preserves_Kernel_KernelIdeal := trivial

/-- Both programs end at the reference's result stage of the kernel's launch contents. -/
theorem algebraic : Cert.algebraic_KernelIdeal_ReferenceIdeal := by
  intro m ρ m' ρ' hpre hagree
  refine ⟨fun c => Cert.ReferenceIdeal.ReadP.val_main_v87 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7)), ?_, ?_⟩
  · refine (θ_run Cert.KernelIdeal.defs _ _).mono (fun r h c => ⟨(h c).1.trans ?_, (h c).2⟩)
      (Cert.KernelIdeal.RunValue.run_result (F := Ideal) m ρ)
    obtain ⟨h0, h2, h3, h4, h5, -, -⟩ := Cert.PreFinite.real_of_pre _ _ _ _ _ _ _ _ (hpre c)
    exact Cert.KernelIdeal.Bridge.result_eq m ρ c h0 h2 h3 h4 h5
  · refine (θ_run Cert.ReferenceIdeal.defs _ _).mono (fun r h c => ⟨(h c).1.trans ?_, (h c).2⟩)
      (Cert.ReferenceIdeal.ValueP.run (F := Ideal) m' ρ')
    obtain ⟨e0, e1, e2, e3, e4, e5, e6, e7⟩ := hagree c
    rw [Cert.ReferenceIdeal.ReadP.val_main_v87_eq, e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
